-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x3 : Shape := ⟨3, ![256, 1024, 3]⟩
abbrev S256x3 : Shape := ⟨2, ![256, 3]⟩
abbrev S256x8 : Shape := ⟨2, ![256, 8]⟩
abbrev S256x4x32 : Shape := ⟨3, ![256, 4, 32]⟩
abbrev S256x32 : Shape := ⟨2, ![256, 32]⟩
abbrev S8x32 : Shape := ⟨2, ![8, 32]⟩
abbrev S32x16 : Shape := ⟨2, ![32, 16]⟩
abbrev S16x256 : Shape := ⟨2, ![16, 256]⟩
abbrev S4x256 : Shape := ⟨2, ![4, 256]⟩
abbrev S256 : Shape := ⟨1, ![256]⟩
abbrev S256x256 : Shape := ⟨2, ![256, 256]⟩
abbrev S_ : Shape := ⟨0, ![]⟩

class Facts : Prop where
  bcast_S_S256x1024x3 : S_.BroadcastsInDim S256x1024x3 (![] : Fin 0 → Fin S256x1024x3.rank)
  reducesTo_S256x1024x3_S_d0_1_2 : S256x1024x3.ReducesTo [0, 1, 2] S_
  h_S_ : 0 < S_.numel
  bcast_S_S256x3 : S_.BroadcastsInDim S256x3 (![] : Fin 0 → Fin S256x3.rank)
  reducesTo_S256x3_S_d0_1 : S256x3.ReducesTo [0, 1] S_
  bcast_S_S256x8 : S_.BroadcastsInDim S256x8 (![] : Fin 0 → Fin S256x8.rank)
  reducesTo_S256x8_S_d0_1 : S256x8.ReducesTo [0, 1] S_
  bcast_S_S256x4x32 : S_.BroadcastsInDim S256x4x32 (![] : Fin 0 → Fin S256x4x32.rank)
  reducesTo_S256x4x32_S_d0_1_2 : S256x4x32.ReducesTo [0, 1, 2] S_
  bcast_S_S256x32 : S_.BroadcastsInDim S256x32 (![] : Fin 0 → Fin S256x32.rank)
  reducesTo_S256x32_S_d0_1 : S256x32.ReducesTo [0, 1] S_
  bcast_S_S8x32 : S_.BroadcastsInDim S8x32 (![] : Fin 0 → Fin S8x32.rank)
  reducesTo_S8x32_S_d0_1 : S8x32.ReducesTo [0, 1] S_
  bcast_S_S32x16 : S_.BroadcastsInDim S32x16 (![] : Fin 0 → Fin S32x16.rank)
  reducesTo_S32x16_S_d0_1 : S32x16.ReducesTo [0, 1] S_
  bcast_S_S16x256 : S_.BroadcastsInDim S16x256 (![] : Fin 0 → Fin S16x256.rank)
  reducesTo_S16x256_S_d0_1 : S16x256.ReducesTo [0, 1] S_
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  main_v53

def fn_part2 {F : FTy → Type} [FloatOps F] (main_arg7 : FVec F S16x256 .f32) (main_arg8 : FVec F S4x256 .f32) (main_arg9 : FVec F S256 .f32) (main_arg10 : FVec F S256x256 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S4x256 .f32 := Host.absf main_arg8
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_v48 main_v49 main_v50

def fn_part1 {F : FTy → Type} [FloatOps F] (main_arg4 : FVec F S256x32 .f32) (main_arg5 : FVec F S8x32 .f32) (main_arg6 : FVec F S32x16 .f32) (main_arg7 : FVec F S16x256 .f32) (main_arg8 : FVec F S4x256 .f32) (main_arg9 : FVec F S256 .f32) (main_arg10 : FVec F S256x256 .f32) (main_v13 : IVec S_ 1) (main_v16 : IVec S256x4x32 1) : IVec S_ 1 :=
  let main_c_5 : IVec S_ 1 := constantI S_ 1 1#1
  let main_v17 : IVec S_ 1 := (fun x v => Host.reduce IntOp.andi x v reducesTo_S256x4x32_S_d0_1_2 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S8x32 .f32 := Host.absf main_arg5
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x1024x3 .f32) (main_arg1 : FVec F S256x3 .f32) (main_arg2 : FVec F S256x8 .f32) (main_arg3 : FVec F S256x4x32 .f32) (main_arg4 : FVec F S256x32 .f32) (main_arg5 : FVec F S8x32 .f32) (main_arg6 : FVec F S32x16 .f32) (main_arg7 : FVec F S16x256 .f32) (main_arg8 : FVec F S4x256 .f32) (main_arg9 : FVec F S256 .f32) (main_arg10 : FVec F S256x256 .f32) : IVec S_ 1 :=
  let main_v0 : FVec F S256x1024x3 .f32 := Host.absf main_arg0
  let main_cst : FVec F S_ .f32 := constant S_ .f32 0x7F800000#32
  let main_v1 : FVec F S256x1024x3 .f32 := broadcastInDim S256x1024x3 ![] bcast_S_S256x1024x3 main_cst
  let main_v2 : IVec S256x1024x3 1 := cmpf .olt main_v0 main_v1
  let main_c : IVec S_ 1 := constantI S_ 1 1#1
  let main_v3 : IVec S_ 1 := (fun x v => Host.reduce IntOp.andi x v reducesTo_S256x1024x3_S_d0_1_2 h_S_) main_v2 main_c
  let main_v4 : FVec F S256x3 .f32 := Host.absf main_arg1
  let main_cst_0 : FVec F S_ .f32 := constant S_ .f32 0x7F800000#32
  let main_v5 : FVec F S256x3 .f32 := broadcastInDim S256x3 ![] bcast_S_S256x3 main_cst_0
  let main_v6 : IVec S256x3 1 := cmpf .olt main_v4 main_v5
  let main_c_1 : IVec S_ 1 := constantI S_ 1 1#1
  let main_v7 : IVec S_ 1 := (fun x v => Host.reduce IntOp.andi x v reducesTo_S256x3_S_d0_1 h_S_) main_v6 main_c_1
  let main_v8 : IVec S_ 1 := andi main_v3 main_v7
  let main_v9 : FVec F S256x8 .f32 := Host.absf main_arg2
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_v14 : FVec F S256x4x32 .f32 := Host.absf main_arg3
  let main_cst_4 : FVec F S_ .f32 := constant S_ .f32 0x7F800000#32
  let main_v15 : FVec F S256x4x32 .f32 := broadcastInDim S256x4x32 ![] bcast_S_S256x4x32 main_cst_4
  let main_v16 : IVec S256x4x32 1 := cmpf .olt main_v14 main_v15
  fn_part1 (F := F) main_arg4 main_arg5 main_arg6 main_arg7 main_arg8 main_arg9 main_arg10 main_v13 main_v16
-- ==== Kernel.lean ====
abbrev S256x1024x3 : Shape := ⟨3, ![256, 1024, 3]⟩
abbrev S256x3 : Shape := ⟨2, ![256, 3]⟩
abbrev S256x8 : Shape := ⟨2, ![256, 8]⟩
abbrev S256x4x32 : Shape := ⟨3, ![256, 4, 32]⟩
abbrev S256x32 : Shape := ⟨2, ![256, 32]⟩
abbrev S8x32 : Shape := ⟨2, ![8, 32]⟩
abbrev S32x16 : Shape := ⟨2, ![32, 16]⟩
abbrev S16x256 : Shape := ⟨2, ![16, 256]⟩
abbrev S4x256 : Shape := ⟨2, ![4, 256]⟩
abbrev S256 : Shape := ⟨1, ![256]⟩
abbrev S256x256 : Shape := ⟨2, ![256, 256]⟩
abbrev S256x1x3 : Shape := ⟨3, ![256, 1, 3]⟩
abbrev S256x1x8 : Shape := ⟨3, ![256, 1, 8]⟩
abbrev S256x1x32 : Shape := ⟨3, ![256, 1, 32]⟩
abbrev S256x1x256 : Shape := ⟨3, ![256, 1, 256]⟩
abbrev S256x1024x256 : Shape := ⟨3, ![256, 1024, 256]⟩
abbrev S4x1024x3 : Shape := ⟨3, ![4, 1024, 3]⟩
abbrev S4x1x3 : Shape := ⟨3, ![4, 1, 3]⟩
abbrev S4x1x8 : Shape := ⟨3, ![4, 1, 8]⟩
abbrev S4x4x32 : Shape := ⟨3, ![4, 4, 32]⟩
abbrev S4x1x32 : Shape := ⟨3, ![4, 1, 32]⟩
abbrev S4x1x256 : Shape := ⟨3, ![4, 1, 256]⟩
abbrev S4x1024x256 : Shape := ⟨3, ![4, 1024, 256]⟩
abbrev S4x1024 : Shape := ⟨2, ![4, 1024]⟩
abbrev S4x1024x1 : Shape := ⟨3, ![4, 1024, 1]⟩
abbrev S4x1024x4 : Shape := ⟨3, ![4, 1024, 4]⟩
abbrev S4x1024x32 : Shape := ⟨3, ![4, 1024, 32]⟩
abbrev S4x1024x8 : Shape := ⟨3, ![4, 1024, 8]⟩
abbrev S4096x8 : Shape := ⟨2, ![4096, 8]⟩
abbrev S4096x32 : Shape := ⟨2, ![4096, 32]⟩
abbrev S4096x16 : Shape := ⟨2, ![4096, 16]⟩
abbrev S4x1024x16 : Shape := ⟨3, ![4, 1024, 16]⟩
abbrev S4096x256 : Shape := ⟨2, ![4096, 256]⟩
abbrev S4096x4 : Shape := ⟨2, ![4096, 4]⟩
abbrev S1x1x256 : Shape := ⟨3, ![1, 1, 256]⟩

abbrev nBuf : Space → Nat
  | .hbm => 17
  | .vmem => 21
  | .smem => 0
  | _ => 0

abbrev bufTy : (tb : Table) → Fin (tcTables nBuf tb) → BufTy
  | .hbm, ⟨0, _⟩ => ⟨S256x1024x3, .f32⟩
  | .hbm, ⟨1, _⟩ => ⟨S256x3, .f32⟩
  | .hbm, ⟨2, _⟩ => ⟨S256x8, .f32⟩
  | .hbm, ⟨3, _⟩ => ⟨S256x4x32, .f32⟩
  | .hbm, ⟨4, _⟩ => ⟨S256x32, .f32⟩
  | .hbm, ⟨5, _⟩ => ⟨S8x32, .f32⟩
  | .hbm, ⟨6, _⟩ => ⟨S32x16, .f32⟩
  | .hbm, ⟨7, _⟩ => ⟨S16x256, .f32⟩
  | .hbm, ⟨8, _⟩ => ⟨S4x256, .f32⟩
  | .hbm, ⟨9, _⟩ => ⟨S256, .f32⟩
  | .hbm, ⟨10, _⟩ => ⟨S256x256, .f32⟩
  | .hbm, ⟨11, _⟩ => ⟨S256x1x3, .f32⟩
  | .hbm, ⟨12, _⟩ => ⟨S256x1x8, .f32⟩
  | .hbm, ⟨13, _⟩ => ⟨S256x1x32, .f32⟩
  | .hbm, ⟨14, _⟩ => ⟨S256x1x256, .f32⟩
  | .hbm, ⟨15, _⟩ => ⟨S256x1024x256, .f32⟩
  | .hbm, ⟨16, _⟩ => ⟨S256x1024x256, .f32⟩
  | .local _ .vmem, ⟨0, _⟩ => ⟨S4x1024x3, .f32⟩
  | .local _ .vmem, ⟨1, _⟩ => ⟨S4x1024x3, .f32⟩
  | .local _ .vmem, ⟨2, _⟩ => ⟨S4x1x3, .f32⟩
  | .local _ .vmem, ⟨3, _⟩ => ⟨S4x1x3, .f32⟩
  | .local _ .vmem, ⟨4, _⟩ => ⟨S4x1x8, .f32⟩
  | .local _ .vmem, ⟨5, _⟩ => ⟨S4x1x8, .f32⟩
  | .local _ .vmem, ⟨6, _⟩ => ⟨S4x4x32, .f32⟩
  | .local _ .vmem, ⟨7, _⟩ => ⟨S4x4x32, .f32⟩
  | .local _ .vmem, ⟨8, _⟩ => ⟨S4x1x32, .f32⟩
  | .local _ .vmem, ⟨9, _⟩ => ⟨S4x1x32, .f32⟩
  | .local _ .vmem, ⟨10, _⟩ => ⟨S8x32, .f32⟩
  | .local _ .vmem, ⟨11, _⟩ => ⟨S32x16, .f32⟩
  | .local _ .vmem, ⟨12, _⟩ => ⟨S16x256, .f32⟩
  | .local _ .vmem, ⟨13, _⟩ => ⟨S4x256, .f32⟩
  | .local _ .vmem, ⟨14, _⟩ => ⟨S256, .f32⟩
  | .local _ .vmem, ⟨15, _⟩ => ⟨S4x1x256, .f32⟩
  | .local _ .vmem, ⟨16, _⟩ => ⟨S4x1x256, .f32⟩
  | .local _ .vmem, ⟨17, _⟩ => ⟨S4x1024x256, .f32⟩
  | .local _ .vmem, ⟨18, _⟩ => ⟨S4x1024x256, .f32⟩
  | .local _ .vmem, ⟨19, _⟩ => ⟨S4x1024x256, .f32⟩
  | .local _ .vmem, ⟨20, _⟩ => ⟨S4x1024x256, .f32⟩
  | _, _ => ⟨S256x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S256x3_S256x1x3_0_2 : S256x3.BroadcastsInDim S256x1x3 (![0, 2] : Fin 2 → Fin S256x1x3.rank)
  bcast_S256x8_S256x1x8_0_2 : S256x8.BroadcastsInDim S256x1x8 (![0, 2] : Fin 2 → Fin S256x1x8.rank)
  bcast_S256x32_S256x1x32_0_2 : S256x32.BroadcastsInDim S256x1x32 (![0, 2] : Fin 2 → Fin S256x1x32.rank)
  bcast_S256x256_S256x1x256_0_2 : S256x256.BroadcastsInDim S256x1x256 (![0, 2] : Fin 2 → Fin S256x1x256.rank)
  inb_S4x1024x3_S4x1024x3_0_0_0 : ∀ a, (![0, 0, 0] : Fin 3 → Nat) a + S4x1024x3.size a ≤ S4x1024x3.size a
  h_S4x1024x3 : 0 < S4x1024x3.numel
  inb_S4x1x3_S4x1x3_0_0_0 : ∀ a, (![0, 0, 0] : Fin 3 → Nat) a + S4x1x3.size a ≤ S4x1x3.size a
  h_S4x1x3 : 0 < S4x1x3.numel
  shapeCasts_S4x1x3_S4x1x3 : S4x1x3.ShapeCasts S4x1x3
  broadcasts_S4x1x3_S4x1024x3 : S4x1x3.Broadcasts S4x1024x3
  reduces_S4x1024x3_S4x1024 : S4x1024x3.Reduces [2] S4x1024
  shapeCasts_S4x1024_S4x1024x1 : S4x1024.ShapeCasts S4x1024x1
  concatenates_S4x1024x1_S4x1024x3_S4x1024x4_d2 : Shape.Concatenates [S4x1024x1, S4x1024x3] S4x1024x4 2
  inb_S4x4x32_S4x4x32_0_0_0 : ∀ a, (![0, 0, 0] : Fin 3 → Nat) a + S4x4x32.size a ≤ S4x4x32.size a
  h_S4x4x32 : 0 < S4x4x32.numel
  inb_S4x1x32_S4x1x32_0_0_0 : ∀ a, (![0, 0, 0] : Fin 3 → Nat) a + S4x1x32.size a ≤ S4x1x32.size a
  h_S4x1x32 : 0 < S4x1x32.numel
  shapeCasts_S4x1x32_S4x1x32 : S4x1x32.ShapeCasts S4x1x32
  bitsLt_bf16_f32 : FTy.bits .bf16 < FTy.bits .f32
  broadcasts_S4x1x32_S4x1024x32 : S4x1x32.Broadcasts S4x1024x32
  inb_S4x1x8_S4x1x8_0_0_0 : ∀ a, (![0, 0, 0] : Fin 3 → Nat) a + S4x1x8.size a ≤ S4x1x8.size a
  h_S4x1x8 : 0 < S4x1x8.numel
  shapeCasts_S4x1x8_S4x1x8 : S4x1x8.ShapeCasts S4x1x8
  broadcasts_S4x1024x1_S4x1024x8 : S4x1024x1.Broadcasts S4x1024x8
  broadcasts_S4x1x8_S4x1024x8 : S4x1x8.Broadcasts S4x1024x8
  inb_S8x32_S8x32_0_0 : ∀ a, (![0, 0] : Fin 2 → Nat) a + S8x32.size a ≤ S8x32.size a
  h_S8x32 : 0 < S8x32.numel
  shapeCasts_S4x1024x8_S4096x8 : S4x1024x8.ShapeCasts S4096x8
  shapeCasts_S4096x32_S4x1024x32 : S4096x32.ShapeCasts S4x1024x32
  inb_S32x16_S32x16_0_0 : ∀ a, (![0, 0] : Fin 2 → Nat) a + S32x16.size a ≤ S32x16.size a
  h_S32x16 : 0 < S32x16.numel
  shapeCasts_S4x1024x32_S4096x32 : S4x1024x32.ShapeCasts S4096x32
  shapeCasts_S4096x16_S4x1024x16 : S4096x16.ShapeCasts S4x1024x16
  broadcasts_S4x1024x1_S4x1024x16 : S4x1024x1.Broadcasts S4x1024x16
  inb_S16x256_S16x256_0_0 : ∀ a, (![0, 0] : Fin 2 → Nat) a + S16x256.size a ≤ S16x256.size a
  h_S16x256 : 0 < S16x256.numel
  shapeCasts_S4x1024x16_S4096x16 : S4x1024x16.ShapeCasts S4096x16
  shapeCasts_S4096x256_S4x1024x256 : S4096x256.ShapeCasts S4x1024x256
  inb_S4x1024x256_S4x1024x256_0_0_0 : ∀ a, (![0, 0, 0] : Fin 3 → Nat) a + S4x1024x256.size a ≤ S4x1024x256.size a
  h_S4x1024x256 : 0 < S4x1024x256.numel
  broadcasts_S4x1024x1_S4x1024x4 : S4x1024x1.Broadcasts S4x1024x4
  inb_S4x256_S4x256_0_0 : ∀ a, (![0, 0] : Fin 2 → Nat) a + S4x256.size a ≤ S4x256.size a
  h_S4x256 : 0 < S4x256.numel
  inb_S256_S256_0 : ∀ a, (![0] : Fin 1 → Nat) a + S256.size a ≤ S256.size a
  h_S256 : 0 < S256.numel
  inb_S4x1x256_S4x1x256_0_0_0 : ∀ a, (![0, 0, 0] : Fin 3 → Nat) a + S4x1x256.size a ≤ S4x1x256.size a
  h_S4x1x256 : 0 < S4x1x256.numel
  shapeCasts_S4x1x256_S4x1x256 : S4x1x256.ShapeCasts S4x1x256
  shapeCasts_S4x1024x4_S4096x4 : S4x1024x4.ShapeCasts S4096x4
  shapeCasts_S256_S1x1x256 : S256.ShapeCasts S1x1x256
  broadcasts_S1x1x256_S4x1024x256 : S1x1x256.Broadcasts S4x1024x256
  broadcasts_S4x1x256_S4x1024x256 : S4x1x256.Broadcasts S4x1024x256
  dot_S4x1024x4_S4x4x32_S4x1024x32_2_1_1_2_0_0_wf : DotDims.WF S4x1024x4 S4x4x32 S4x1024x32 [2] [1] [1] [2] [0] [0]
  dot_S4096x8_S8x32_S4096x32_1_0_0_1_n_n_wf : DotDims.WF S4096x8 S8x32 S4096x32 [1] [0] [0] [1] [] []
  dot_S4096x32_S32x16_S4096x16_1_0_0_1_n_n_wf : DotDims.WF S4096x32 S32x16 S4096x16 [1] [0] [0] [1] [] []
  dot_S4096x16_S16x256_S4096x256_1_0_0_1_n_n_wf : DotDims.WF S4096x16 S16x256 S4096x256 [1] [0] [0] [1] [] []
  dot_S4096x4_S4x256_S4096x256_1_0_0_1_n_n_wf : DotDims.WF S4096x4 S4x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S256x1024x3.size a
  hwx0_0 : ∀ i : grid0.Coords, EltTy.bits .f32 = 32 ∨ (Rect.block (s := S256x1024x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x3.size a ≤ S256x1x3.size a
  hwx0_1 : ∀ i : grid0.Coords, EltTy.bits .f32 = 32 ∨ (Rect.block (s := S256x1x3) S4x1x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x8.size a ≤ S256x1x8.size a
  hwx0_2 : ∀ i : grid0.Coords, EltTy.bits .f32 = 32 ∨ (Rect.block (s := S256x1x8) S4x1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x4x32.size a ≤ S256x4x32.size a
  hwx0_3 : ∀ i : grid0.Coords, EltTy.bits .f32 = 32 ∨ (Rect.block (s := S256x4x32) S4x4x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x32.size a ≤ S256x1x32.size a
  hwx0_4 : ∀ i : grid0.Coords, EltTy.bits .f32 = 32 ∨ (Rect.block (s := S256x1x32) S4x1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32.size a ≤ S8x32.size a
  hwx0_5 : ∀ i : grid0.Coords, EltTy.bits .f32 = 32 ∨ (Rect.block (s := S8x32) S8x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .f32 = 32 ∨ (Rect.block (s := S32x16) S32x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x256.size a ≤ S16x256.size a
  hwx0_7 : ∀ i : grid0.Coords, EltTy.bits .f32 = 32 ∨ (Rect.block (s := S16x256) S16x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .f32 = 32 ∨ (Rect.block (s := S4x256) S4x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x1x256.size a ≤ S256x1x256.size a
  hwx0_10 : ∀ i : grid0.Coords, EltTy.bits .f32 = 32 ∨ (Rect.block (s := S256x1x256) S4x1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x1024x256.size a ≤ S256x1024x256.size a
  hwx0_11 : ∀ i : grid0.Coords, EltTy.bits .f32 = 32 ∨ (Rect.block (s := S256x1024x256) S4x1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4x1024x256.size a ≤ S256x1024x256.size a
  hwx0_12 : ∀ i : grid0.Coords, EltTy.bits .f32 = 32 ∨ (Rect.block (s := S256x1024x256) S4x1024x256.size (cc0_transform_12 i) (hinb0_12 i)).WholeWords (EltTy.packing .f32)

variable [Facts₀]

def dot_S4x1024x4_S4x4x32_S4x1024x32_2_1_1_2_0_0 : DotDims S4x1024x4 S4x4x32 S4x1024x32 where
  lhsContracting := [2]
  rhsContracting := [1]
  lhsNonContracting := [1]
  rhsNonContracting := [2]
  lhsBatch := [0]
  rhsBatch := [0]
  wf := dot_S4x1024x4_S4x4x32_S4x1024x32_2_1_1_2_0_0_wf
def dot_S4096x8_S8x32_S4096x32_1_0_0_1_n_n : DotDims S4096x8 S8x32 S4096x32 where
  lhsContracting := [1]
  rhsContracting := [0]
  lhsNonContracting := [0]
  rhsNonContracting := [1]
  lhsBatch := []
  rhsBatch := []
  wf := dot_S4096x8_S8x32_S4096x32_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf
def dot_S4096x4_S4x256_S4096x256_1_0_0_1_n_n : DotDims S4096x4 S4x256 S4096x256 where
  lhsContracting := [1]
  rhsContracting := [0]
  lhsNonContracting := [0]
  rhsNonContracting := [1]
  lhsBatch := []
  rhsBatch := []
  wf := dot_S4096x4_S4x256_S4096x256_1_0_0_1_n_n_wf

abbrev win0_0 : Pipeline.Window sig grid0 :=
  Pipeline.Window.ofSpec (Memref.whole main_arg0) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x4x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x1x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S4x1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S4x1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S4x1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x1024x3 : Shape := ⟨3, ![256, 1024, 3]⟩
abbrev S256x3 : Shape := ⟨2, ![256, 3]⟩
abbrev S256x8 : Shape := ⟨2, ![256, 8]⟩
abbrev S256x4x32 : Shape := ⟨3, ![256, 4, 32]⟩
abbrev S256x32 : Shape := ⟨2, ![256, 32]⟩
abbrev S8x32 : Shape := ⟨2, ![8, 32]⟩
abbrev S32x16 : Shape := ⟨2, ![32, 16]⟩
abbrev S16x256 : Shape := ⟨2, ![16, 256]⟩
abbrev S4x256 : Shape := ⟨2, ![4, 256]⟩
abbrev S256 : Shape := ⟨1, ![256]⟩
abbrev S256x256 : Shape := ⟨2, ![256, 256]⟩
abbrev S256x1x3 : Shape := ⟨3, ![256, 1, 3]⟩
abbrev S_ : Shape := ⟨0, ![]⟩
abbrev S256x1024 : Shape := ⟨2, ![256, 1024]⟩
abbrev S256x1024x1 : Shape := ⟨3, ![256, 1024, 1]⟩
abbrev S256x1024x4 : Shape := ⟨3, ![256, 1024, 4]⟩
abbrev S256x1024x32 : Shape := ⟨3, ![256, 1024, 32]⟩
abbrev S256x1x32 : Shape := ⟨3, ![256, 1, 32]⟩
abbrev S256x1x8 : Shape := ⟨3, ![256, 1, 8]⟩
abbrev S256x1024x8 : Shape := ⟨3, ![256, 1024, 8]⟩
abbrev S256x1024x16 : Shape := ⟨3, ![256, 1024, 16]⟩
abbrev S256x1024x256 : Shape := ⟨3, ![256, 1024, 256]⟩
abbrev S1x1x256 : Shape := ⟨3, ![1, 1, 256]⟩
abbrev S256x1x256 : Shape := ⟨3, ![256, 1, 256]⟩

abbrev nBuf : Space → Nat
  | .hbm => 70
  | .vmem => 0
  | .smem => 0
  | _ => 0

abbrev bufTy : (tb : Table) → Fin (tcTables nBuf tb) → BufTy
  | .hbm, ⟨0, _⟩ => ⟨S256x1024x3, .f32⟩
  | .hbm, ⟨1, _⟩ => ⟨S256x3, .f32⟩
  | .hbm, ⟨2, _⟩ => ⟨S256x8, .f32⟩
  | .hbm, ⟨3, _⟩ => ⟨S256x4x32, .f32⟩
  | .hbm, ⟨4, _⟩ => ⟨S256x32, .f32⟩
  | .hbm, ⟨5, _⟩ => ⟨S8x32, .f32⟩
  | .hbm, ⟨6, _⟩ => ⟨S32x16, .f32⟩
  | .hbm, ⟨7, _⟩ => ⟨S16x256, .f32⟩
  | .hbm, ⟨8, _⟩ => ⟨S4x256, .f32⟩
  | .hbm, ⟨9, _⟩ => ⟨S256, .f32⟩
  | .hbm, ⟨10, _⟩ => ⟨S256x256, .f32⟩
  | .hbm, ⟨11, _⟩ => ⟨S256x1x3, .f32⟩
  | .hbm, ⟨12, _⟩ => ⟨S256x1024x3, .f32⟩
  | .hbm, ⟨13, _⟩ => ⟨S256x1024x3, .f32⟩
  | .hbm, ⟨14, _⟩ => ⟨S256x1024x3, .f32⟩
  | .hbm, ⟨15, _⟩ => ⟨S_, .f32⟩
  | .hbm, ⟨16, _⟩ => ⟨S256x1024, .f32⟩
  | .hbm, ⟨17, _⟩ => ⟨S256x1024x1, .f32⟩
  | .hbm, ⟨18, _⟩ => ⟨S256x1024x1, .f32⟩
  | .hbm, ⟨19, _⟩ => ⟨S256x1024x4, .f32⟩
  | .hbm, ⟨20, _⟩ => ⟨S256x1024x32, .f32⟩
  | .hbm, ⟨21, _⟩ => ⟨S256x1x32, .f32⟩
  | .hbm, ⟨22, _⟩ => ⟨S256x1024x32, .f32⟩
  | .hbm, ⟨23, _⟩ => ⟨S256x1024x32, .f32⟩
  | .hbm, ⟨24, _⟩ => ⟨S256x1024x32, .f32⟩
  | .hbm, ⟨25, _⟩ => ⟨S256x1024x1, .f32⟩
  | .hbm, ⟨26, _⟩ => ⟨S256x1x8, .f32⟩
  | .hbm, ⟨27, _⟩ => ⟨S256x1024x8, .f32⟩
  | .hbm, ⟨28, _⟩ => ⟨S256x1024x8, .f32⟩
  | .hbm, ⟨29, _⟩ => ⟨S256x1024x8, .f32⟩
  | .hbm, ⟨30, _⟩ => ⟨S256x1024x8, .f32⟩
  | .hbm, ⟨31, _⟩ => ⟨S256x1024x32, .f32⟩
  | .hbm, ⟨32, _⟩ => ⟨S256x1024x32, .f32⟩
  | .hbm, ⟨33, _⟩ => ⟨S_, .f32⟩
  | .hbm, ⟨34, _⟩ => ⟨S256x1024x1, .f32⟩
  | .hbm, ⟨35, _⟩ => ⟨S256x1024x1, .f32⟩
  | .hbm, ⟨36, _⟩ => ⟨S_, .f32⟩
  | .hbm, ⟨37, _⟩ => ⟨S256x1024x1, .f32⟩
  | .hbm, ⟨38, _⟩ => ⟨S256x1024x1, .i1⟩
  | .hbm, ⟨39, _⟩ => ⟨S_, .f32⟩
  | .hbm, ⟨40, _⟩ => ⟨S256x1024x1, .f32⟩
  | .hbm, ⟨41, _⟩ => ⟨S256x1024x1, .f32⟩
  | .hbm, ⟨42, _⟩ => ⟨S256x1024x1, .f32⟩
  | .hbm, ⟨43, _⟩ => ⟨S_, .f32⟩
  | .hbm, ⟨44, _⟩ => ⟨S256x1024x1, .f32⟩
  | .hbm, ⟨45, _⟩ => ⟨S256x1024x1, .f32⟩
  | .hbm, ⟨46, _⟩ => ⟨S_, .f32⟩
  | .hbm, ⟨47, _⟩ => ⟨S256x1024x1, .f32⟩
  | .hbm, ⟨48, _⟩ => ⟨S256x1024x1, .f32⟩
  | .hbm, ⟨49, _⟩ => ⟨S256x1024x1, .f32⟩
  | .hbm, ⟨50, _⟩ => ⟨S_, .f32⟩
  | .hbm, ⟨51, _⟩ => ⟨S_, .f32⟩
  | .hbm, ⟨52, _⟩ => ⟨S256x1024x1, .f32⟩
  | .hbm, ⟨53, _⟩ => ⟨S256x1024x1, .f32⟩
  | .hbm, ⟨54, _⟩ => ⟨S256x1024x16, .f32⟩
  | .hbm, ⟨55, _⟩ => ⟨S256x1024x16, .f32⟩
  | .hbm, ⟨56, _⟩ => ⟨S256x1024x16, .f32⟩
  | .hbm, ⟨57, _⟩ => ⟨S256x1024x256, .f32⟩
  | .hbm, ⟨58, _⟩ => ⟨S256x1024x4, .f32⟩
  | .hbm, ⟨59, _⟩ => ⟨S256x1024x4, .f32⟩
  | .hbm, ⟨60, _⟩ => ⟨S256x1024x1, .f32⟩
  | .hbm, ⟨61, _⟩ => ⟨S256x1024x4, .f32⟩
  | .hbm, ⟨62, _⟩ => ⟨S256x1024x4, .f32⟩
  | .hbm, ⟨63, _⟩ => ⟨S256x1024x256, .f32⟩
  | .hbm, ⟨64, _⟩ => ⟨S1x1x256, .f32⟩
  | .hbm, ⟨65, _⟩ => ⟨S256x1024x256, .f32⟩
  | .hbm, ⟨66, _⟩ => ⟨S256x1024x256, .f32⟩
  | .hbm, ⟨67, _⟩ => ⟨S256x1x256, .f32⟩
  | .hbm, ⟨68, _⟩ => ⟨S256x1024x256, .f32⟩
  | .hbm, ⟨69, _⟩ => ⟨S256x1024x256, .f32⟩
  | _, _ => ⟨S256x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  bcast_S256x3_S256x1x3_0_2 : S256x3.BroadcastsInDim S256x1x3 (![0, 2] : Fin 2 → Fin S256x1x3.rank)
  bcast_S256x1x3_S256x1024x3_0_1_2 : S256x1x3.BroadcastsInDim S256x1024x3 (![0, 1, 2] : Fin 3 → Fin S256x1024x3.rank)
  reducesTo_S256x1024x3_S256x1024_d2 : S256x1024x3.ReducesTo [2] S256x1024
  h_S_ : 0 < S_.numel
  bcast_S256x1024_S256x1024x1_0_1 : S256x1024.BroadcastsInDim S256x1024x1 (![0, 1] : Fin 2 → Fin S256x1024x1.rank)
  concatenates_S256x1024x1_S256x1024x3_S256x1024x4_d2 : Shape.Concatenates [S256x1024x1, S256x1024x3] S256x1024x4 2
  bcast_S256x32_S256x1x32_0_2 : S256x32.BroadcastsInDim S256x1x32 (![0, 2] : Fin 2 → Fin S256x1x32.rank)
  bcast_S256x1x32_S256x1024x32_0_1_2 : S256x1x32.BroadcastsInDim S256x1024x32 (![0, 1, 2] : Fin 3 → Fin S256x1024x32.rank)
  bcast_S256x8_S256x1x8_0_2 : S256x8.BroadcastsInDim S256x1x8 (![0, 2] : Fin 2 → Fin S256x1x8.rank)
  bcast_S256x1024x1_S256x1024x8_0_1_2 : S256x1024x1.BroadcastsInDim S256x1024x8 (![0, 1, 2] : Fin 3 → Fin S256x1024x8.rank)
  bcast_S256x1x8_S256x1024x8_0_1_2 : S256x1x8.BroadcastsInDim S256x1024x8 (![0, 1, 2] : Fin 3 → Fin S256x1024x8.rank)
  bcast_S_S256x1024x1 : S_.BroadcastsInDim S256x1024x1 (![] : Fin 0 → Fin S256x1024x1.rank)
  bcast_S256x1024x1_S256x1024x16_0_1_2 : S256x1024x1.BroadcastsInDim S256x1024x16 (![0, 1, 2] : Fin 3 → Fin S256x1024x16.rank)
  bcast_S256x1024x1_S256x1024x4_0_1_2 : S256x1024x1.BroadcastsInDim S256x1024x4 (![0, 1, 2] : Fin 3 → Fin S256x1024x4.rank)
  bcast_S256_S1x1x256_2 : S256.BroadcastsInDim S1x1x256 (![2] : Fin 1 → Fin S1x1x256.rank)
  bcast_S1x1x256_S256x1024x256_0_1_2 : S1x1x256.BroadcastsInDim S256x1024x256 (![0, 1, 2] : Fin 3 → Fin S256x1024x256.rank)
  bcast_S256x256_S256x1x256_0_2 : S256x256.BroadcastsInDim S256x1x256 (![0, 2] : Fin 2 → Fin S256x1x256.rank)
  bcast_S256x1x256_S256x1024x256_0_1_2 : S256x1x256.BroadcastsInDim S256x1024x256 (![0, 1, 2] : Fin 3 → Fin S256x1024x256.rank)
  dot_S256x1024x4_S256x4x32_S256x1024x32_2_1_1_2_0_0_wf : DotDims.WF S256x1024x4 S256x4x32 S256x1024x32 [2] [1] [1] [2] [0] [0]
  dot_S256x1024x8_S8x32_S256x1024x32_2_0_01_1_n_n_wf : DotDims.WF S256x1024x8 S8x32 S256x1024x32 [2] [0] [0, 1] [1] [] []
  dot_S256x1024x32_S32x16_S256x1024x16_2_0_01_1_n_n_wf : DotDims.WF S256x1024x32 S32x16 S256x1024x16 [2] [0] [0, 1] [1] [] []
  dot_S256x1024x16_S16x256_S256x1024x256_2_0_01_1_n_n_wf : DotDims.WF S256x1024x16 S16x256 S256x1024x256 [2] [0] [0, 1] [1] [] []
  dot_S256x1024x4_S4x256_S256x1024x256_2_0_01_1_n_n_wf : DotDims.WF S256x1024x4 S4x256 S256x1024x256 [2] [0] [0, 1] [1] [] []

variable [Facts₀]

def dot_S256x1024x4_S256x4x32_S256x1024x32_2_1_1_2_0_0 : DotDims S256x1024x4 S256x4x32 S256x1024x32 where
  lhsContracting := [2]
  rhsContracting := [1]
  lhsNonContracting := [1]
  rhsNonContracting := [2]
  lhsBatch := [0]
  rhsBatch := [0]
  wf := dot_S256x1024x4_S256x4x32_S256x1024x32_2_1_1_2_0_0_wf
def dot_S256x1024x8_S8x32_S256x1024x32_2_0_01_1_n_n : DotDims S256x1024x8 S8x32 S256x1024x32 where
  lhsContracting := [2]
  rhsContracting := [0]
  lhsNonContracting := [0, 1]
  rhsNonContracting := [1]
  lhsBatch := []
  rhsBatch := []
  wf := dot_S256x1024x8_S8x32_S256x1024x32_2_0_01_1_n_n_wf
def dot_S256x1024x32_S32x16_S256x1024x16_2_0_01_1_n_n : DotDims S256x1024x32 S32x16 S256x1024x16 where
  lhsContracting := [2]
  rhsContracting := [0]
  lhsNonContracting := [0, 1]
  rhsNonContracting := [1]
  lhsBatch := []
  rhsBatch := []
  wf := dot_S256x1024x32_S32x16_S256x1024x16_2_0_01_1_n_n_wf
def dot_S256x1024x16_S16x256_S256x1024x256_2_0_01_1_n_n : DotDims S256x1024x16 S16x256 S256x1024x256 where
  lhsContracting := [2]
  rhsContracting := [0]
  lhsNonContracting := [0, 1]
  rhsNonContracting := [1]
  lhsBatch := []
  rhsBatch := []
  wf := dot_S256x1024x16_S16x256_S256x1024x256_2_0_01_1_n_n_wf
def dot_S256x1024x4_S4x256_S256x1024x256_2_0_01_1_n_n : DotDims S256x1024x4 S4x256 S256x1024x256 where
  lhsContracting := [2]
  rhsContracting := [0]
  lhsNonContracting := [0, 1]
  rhsNonContracting := [1]
  lhsBatch := []
  rhsBatch := []
  wf := dot_S256x1024x4_S4x256_S256x1024x256_2_0_01_1_n_n_wf

class Facts : Prop extends Facts₀ where

variable [Facts]
-- ==== Proof.Spec.lean ====
/-
  The two results of the network for ONE (nucleus, electron) pair, written as functions of that pair's own data,
  and the two result arrays as those functions read pair by pair.

  For an electron at position p near a nucleus at position R, with the nucleus's envelope scales sc, filter
  matrix K and bias, and the shared weights:
    diff    = p − R                                   (3 coordinates)
    dist    = √(Σ_c diff_c²)
    feats   = (dist, diff_0, diff_1, diff_2)          (4 features)
    hidden_k = tanh(Σ_f feats_f · K_{f,k} + bias_k) · Σ_v exp(−dist · sc_v) · envw_{v,k}
    ratio   = dist / 5,   cutoff = (1 − ratio)² · (1 + 2·ratio) where ratio < 1, else 0
    beta_j  = (Σ_k hidden_k · wbeta_{k,j}) · cutoff
    gamma_f = Σ_j beta_j · wgamma_{j,f}
    scaled_c = feats_c / dist · log(1 + dist)
    edge_f  = Σ_c scaled_c · wedge_{c,f} + bedge_f + zn_f
  Every operation is the exact one on the extended reals, so a sum may be taken in any order and a change of
  float format is the identity; the float constants 5, 1, 2 and 0 are kept as their binary words.
-/
import Idealize.ShloMosaic.PureOps.Ideal
import Idealize.ShloMosaic.Lib.ValueIdx

noncomputable section

open scoped BigOperators

namespace Cert.Pair

open Idealize.ShloMosaic Idealize.ShloMosaic.ValueIdx

/-- The electron's displacement from its nucleus, coordinate by coordinate. -/
def diff (p R : Fin 3 → EReal) (c : Fin 3) : EReal := p c - R c

/-- The distance: the square root of the sum of the squared displacements. -/
def dist (p R : Fin 3 → EReal) : EReal := Ideal.sqrt (∑ c : Fin 3, diff p R c * diff p R c)

/-- The four features: the distance, then the three displacements. -/
def feats (p R : Fin 3 → EReal) : Fin 4 → EReal := Fin.cons (dist p R) (diff p R)

/-- The gated hidden unit k: tanh of the nucleus's filter applied to the features plus its bias, times the
    envelope gate Σ_v exp(−dist · sc_v) · envw_{v,k}. -/
def hidden (p R : Fin 3 → EReal) (sc : Fin 8 → EReal) (K : Fin 4 → Fin 32 → EReal) (bias : Fin 32 → EReal)
    (envw : Fin 8 → Fin 32 → EReal) (k : Fin 32) : EReal :=
  Ideal.tanh ((∑ f : Fin 4, feats p R f * K f k) + bias k) * ∑ v : Fin 8, Ideal.exp (-(dist p R) * sc v) * envw v k

/-- The distance over the cutoff radius 5. -/
def ratio (p R : Fin 3 → EReal) : EReal := Ideal.div (dist p R) (Ideal.ofBits .f32 0x40A00000#32)

/-- The smooth cutoff (1 − ratio)² (1 + 2 ratio) inside the radius, 0 outside. -/
def cutoff (p R : Fin 3 → EReal) : EReal :=
  Scalar.select (Ideal.cmp .olt (ratio p R) (Ideal.ofBits .f32 0x3F800000#32))
    (((Ideal.ofBits .f32 0x3F800000#32 - ratio p R) * (Ideal.ofBits .f32 0x3F800000#32 - ratio p R))
      * (Ideal.ofBits .f32 0x3F800000#32 + Ideal.ofBits .f32 0x40000000#32 * ratio p R))
    (Ideal.ofBits .f32 0x00000000#32)

/-- The hidden units projected by wbeta and cut off. -/
def beta (p R : Fin 3 → EReal) (sc : Fin 8 → EReal) (K : Fin 4 → Fin 32 → EReal) (bias : Fin 32 → EReal)
    (envw : Fin 8 → Fin 32 → EReal) (wbeta : Fin 32 → Fin 16 → EReal) (j : Fin 16) : EReal :=
  (∑ k : Fin 32, hidden p R sc K bias envw k * wbeta k j) * cutoff p R

/-- The first result for the pair: beta projected by wgamma. -/
def gamma (p R : Fin 3 → EReal) (sc : Fin 8 → EReal) (K : Fin 4 → Fin 32 → EReal) (bias : Fin 32 → EReal)
    (envw : Fin 8 → Fin 32 → EReal) (wbeta : Fin 32 → Fin 16 → EReal) (wgamma : Fin 16 → Fin 256 → EReal)
    (f : Fin 256) : EReal :=
  ∑ j : Fin 16, beta p R sc K bias envw wbeta j * wgamma j f

/-- The features rescaled by log(1 + dist) / dist. -/
def scaled (p R : Fin 3 → EReal) (c : Fin 4) : EReal :=
  Ideal.div (feats p R c) (dist p R) * Ideal.log1p (dist p R)

/-- The second result for the pair: the rescaled features projected by wedge, plus the shared bias, plus the
    nucleus's embedding. -/
def edge (p R : Fin 3 → EReal) (wedge : Fin 4 → Fin 256 → EReal) (bedge zn : Fin 256 → EReal) (f : Fin 256) : EReal :=
  ((∑ c : Fin 4, scaled p R c * wedge c f) + bedge f) + zn f

/-- The first result array: entry (n, e, f) is `gamma` of nucleus n's and electron (n, e)'s data. -/
def gammaArr (r : (⟨3, ![256, 1024, 3]⟩ : Shape).Idx → EReal) (R : (⟨2, ![256, 3]⟩ : Shape).Idx → EReal)
    (sc : (⟨2, ![256, 8]⟩ : Shape).Idx → EReal) (K : (⟨3, ![256, 4, 32]⟩ : Shape).Idx → EReal)
    (bias : (⟨2, ![256, 32]⟩ : Shape).Idx → EReal) (envw : (⟨2, ![8, 32]⟩ : Shape).Idx → EReal)
    (wbeta : (⟨2, ![32, 16]⟩ : Shape).Idx → EReal) (wgamma : (⟨2, ![16, 256]⟩ : Shape).Idx → EReal) :
    (⟨3, ![256, 1024, 256]⟩ : Shape).Idx → EReal := fun i =>
  gamma (fun c => r (ix3 (i 0) (i 1) c)) (fun c => R (ix2 (i 0) c)) (fun v => sc (ix2 (i 0) v))
    (fun f k => K (ix3 (i 0) f k)) (fun k => bias (ix2 (i 0) k)) (fun v k => envw (ix2 v k))
    (fun k j => wbeta (ix2 k j)) (fun j f => wgamma (ix2 j f)) (i 2)

/-- The second result array: entry (n, e, f) is `edge` of nucleus n's and electron (n, e)'s data. -/
def edgeArr (r : (⟨3, ![256, 1024, 3]⟩ : Shape).Idx → EReal) (R : (⟨2, ![256, 3]⟩ : Shape).Idx → EReal)
    (wedge : (⟨2, ![4, 256]⟩ : Shape).Idx → EReal) (bedge : (⟨1, ![256]⟩ : Shape).Idx → EReal)
    (zn : (⟨2, ![256, 256]⟩ : Shape).Idx → EReal) :
    (⟨3, ![256, 1024, 256]⟩ : Shape).Idx → EReal := fun i =>
  edge (fun c => r (ix3 (i 0) (i 1) c)) (fun c => R (ix2 (i 0) c)) (fun c f => wedge (ix2 c f))
    (fun f => bedge (ix1 f)) (fun f => zn (ix2 (i 0) f)) (i 2)

end Cert.Pair

end
-- ==== Proof.LibBatch3.lean ====
/-
  Arrays with a batch axis, a row axis and a lane axis, read at an entry (b, r, l).

  * Merging the batch and row axes: an A×B×C array viewed as (A·B)×C holds at (b·B + r, l) what the array holds at
    (b, r, l), and the view back splits the merged row index the same way: both views keep the row-major position.
  * Broadcasts that repeat a per-batch row (A×1×C), a per-row column (A×B×1) or one shared row (1×1×C) over the
    whole A×B×C array, and a length-C vector viewed as a 1×1×C row.
  * The sum over the lane axis kept as a unit axis: an A×B×C array summed over its lanes and viewed as A×B×1 holds
    at (b, r, 0) the sum over l of the entries (b, r, l).
-/
import Idealize.ShloMosaic.PureOps.Ideal.Laws
import Idealize.ShloMosaic.Lib.ValueIdx
import Idealize.ShloMosaic.Lib.Pipeline.Value

noncomputable section

open scoped BigOperators

namespace Cert.Batch3

open Idealize.ShloMosaic Idealize.ShloMosaic.ValueIdx

variable {α : Type} {A B C : Nat}

/-- The merged view (A·B)×C of an A×B×C array at (q, l), where q = b·B + r, is the array at (b, r, l). -/
theorem merge_apply {n : Nat} (x : (⟨3, ![A, B, C]⟩ : Shape).Idx → α)
    (h : (⟨3, ![A, B, C]⟩ : Shape).ShapeCasts ⟨2, ![n, C]⟩) (b : Fin A) (r : Fin B) (l : Fin C) (q : Fin n)
    (hq : q.val = b.val * B + r.val) :
    shapeCast ⟨2, ![n, C]⟩ x h (ix2 q l) = x (ix3 b r l) := by
  refine shapeCast_apply x h (ix2 q l) (ix3 b r l) ?_
  rw [Shape.rowMajor_val_three, Shape.rowMajor_val_two]
  show (b.val * B + r.val) * C + l.val = q.val * C + l.val
  rw [hq]

/-- The split view A×B×C of an (A·B)×C array at (b, r, l) is the array at (q, l), where q = b·B + r. -/
theorem split_apply {n : Nat} (y : (⟨2, ![n, C]⟩ : Shape).Idx → α)
    (h : (⟨2, ![n, C]⟩ : Shape).ShapeCasts ⟨3, ![A, B, C]⟩) (b : Fin A) (r : Fin B) (l : Fin C) (q : Fin n)
    (hq : q.val = b.val * B + r.val) :
    shapeCast ⟨3, ![A, B, C]⟩ y h (ix3 b r l) = y (ix2 q l) := by
  refine shapeCast_apply y h (ix3 b r l) (ix2 q l) ?_
  rw [Shape.rowMajor_val_three, Shape.rowMajor_val_two]
  show q.val * C + l.val = (b.val * B + r.val) * C + l.val
  rw [hq]

/-- A per-batch row A×1×C repeated over the B rows: entry (b, r, l) is the row's (b, 0, l). -/
theorem bcast_row_apply (x : (⟨3, ![A, 1, C]⟩ : Shape).Idx → α)
    (h : (⟨3, ![A, 1, C]⟩ : Shape).Broadcasts ⟨3, ![A, B, C]⟩) (b : Fin A) (r : Fin B) (l : Fin C) :
    broadcastTo ⟨3, ![A, B, C]⟩ x h (ix3 b r l) = x (ix3 b 0 l) := by
  refine broadcastTo_apply x h (ix3 b r l) (ix3 b 0 l) (fun ax => ?_)
  match ax with
  | ⟨0, _⟩ =>
    show b.val = if A = 1 then 0 else b.val
    split_ifs with hA
    · have := b.isLt; omega
    · rfl
  | ⟨1, _⟩ => show 0 = if (1 : Nat) = 1 then 0 else r.val; rw [if_pos rfl]
  | ⟨2, _⟩ =>
    show l.val = if C = 1 then 0 else l.val
    split_ifs with hC
    · have := l.isLt; omega
    · rfl

/-- A per-row column A×B×1 repeated over the C lanes: entry (b, r, l) is the column's (b, r, 0). -/
theorem bcast_col_apply (x : (⟨3, ![A, B, 1]⟩ : Shape).Idx → α)
    (h : (⟨3, ![A, B, 1]⟩ : Shape).Broadcasts ⟨3, ![A, B, C]⟩) (b : Fin A) (r : Fin B) (l : Fin C) :
    broadcastTo ⟨3, ![A, B, C]⟩ x h (ix3 b r l) = x (ix3 b r 0) := by
  refine broadcastTo_apply x h (ix3 b r l) (ix3 b r 0) (fun ax => ?_)
  match ax with
  | ⟨0, _⟩ =>
    show b.val = if A = 1 then 0 else b.val
    split_ifs with hA
    · have := b.isLt; omega
    · rfl
  | ⟨1, _⟩ =>
    show r.val = if B = 1 then 0 else r.val
    split_ifs with hB
    · have := r.isLt; omega
    · rfl
  | ⟨2, _⟩ => show 0 = if (1 : Nat) = 1 then 0 else l.val; rw [if_pos rfl]

/-- One shared row 1×1×C repeated over every batch and row: entry (b, r, l) is the row's (0, 0, l). -/
theorem bcast_lane_apply (x : (⟨3, ![1, 1, C]⟩ : Shape).Idx → α)
    (h : (⟨3, ![1, 1, C]⟩ : Shape).Broadcasts ⟨3, ![A, B, C]⟩) (b : Fin A) (r : Fin B) (l : Fin C) :
    broadcastTo ⟨3, ![A, B, C]⟩ x h (ix3 b r l) = x (ix3 0 0 l) := by
  refine broadcastTo_apply x h (ix3 b r l) (ix3 0 0 l) (fun ax => ?_)
  match ax with
  | ⟨0, _⟩ => show 0 = if (1 : Nat) = 1 then 0 else b.val; rw [if_pos rfl]
  | ⟨1, _⟩ => show 0 = if (1 : Nat) = 1 then 0 else r.val; rw [if_pos rfl]
  | ⟨2, _⟩ =>
    show l.val = if C = 1 then 0 else l.val
    split_ifs with hC
    · have := l.isLt; omega
    · rfl

/-- A length-C vector viewed as a 1×1×C row: entry (0, 0, l) is the vector's entry l. -/
theorem vec_as_lane_apply (v : (⟨1, ![C]⟩ : Shape).Idx → α)
    (h : (⟨1, ![C]⟩ : Shape).ShapeCasts ⟨3, ![1, 1, C]⟩) (l : Fin C) :
    shapeCast ⟨3, ![1, 1, C]⟩ v h (ix3 0 0 l) = v (ix1 l) := by
  refine shapeCast_apply v h (ix3 0 0 l) (ix1 l) ?_
  rw [Shape.rowMajor_val_three, Shape.rowMajor_val_one]
  show l.val = (0 * 1 + 0) * C + l.val
  omega

/-- The reduced index (b, r) with lane l put back is (b, r, l). -/
theorem lift_lane (h : (⟨3, ![A, B, C]⟩ : Shape).Reduces [2] ⟨2, ![A, B]⟩) (b : Fin A) (r : Fin B)
    (l : Fin ((⟨3, ![A, B, C]⟩ : Shape).size 2)) : h.lift (ix2 b r) l = ix3 b r (⟨l.val, l.isLt⟩ : Fin C) := by
  funext c; apply Fin.ext
  fin_cases c <;> rfl

/-- The lane sum kept as a unit axis: an A×B×C array summed over its lanes and viewed as A×B×1 holds at
    (b, r, 0) the sum over l of the entries (b, r, l). -/
theorem lane_sum_keep_apply {φ : FTy} (src : FVec Ideal ⟨3, ![A, B, C]⟩ φ) (acc : BitVec φ.bits)
    (h : (⟨3, ![A, B, C]⟩ : Shape).Reduces [2] ⟨2, ![A, B]⟩) (hφ : FKind.Formats φ)
    (hacc : acc = FKind.add.neutral φ hφ) (hc : (⟨2, ![A, B]⟩ : Shape).ShapeCasts ⟨3, ![A, B, 1]⟩)
    (b : Fin A) (r : Fin B) :
    shapeCast ⟨3, ![A, B, 1]⟩ (multiReduction .add [2] ⟨2, ![A, B]⟩ src acc h hφ hacc) hc (ix3 b r 0)
      = ∑ l : Fin C, src (ix3 b r l) := by
  rw [shapeCast_apply _ hc (ix3 b r 0) (ix2 b r) (by
    rw [Shape.rowMajor_val_three, Shape.rowMajor_val_two]
    show b.val * B + r.val = (b.val * B + r.val) * 1 + 0
    omega)]
  rw [Ideal.multiReduction_add_single]
  exact Finset.sum_congr rfl fun l _ => congrArg src (lift_lane h b r l)

end Cert.Batch3

end
-- ==== Proof.PairLayout.lean ====
/-
  The feature vector as a concatenation: joining a column of distances (N×E×1) and the array of displacements
  (N×E×3) along the last axis gives, at (n, e, f), the distance for f = 0 and displacement f − 1 otherwise.
-/
import Idealize.ShloMosaic.Lib.ValueIdx
import Idealize.ShloMosaic.Lib.Pipeline.Value

noncomputable section

namespace Cert.PairLayout

open Idealize.ShloMosaic Idealize.ShloMosaic.ValueIdx

/-- Entry (n, e, f) of the concatenation along the last axis of an N×E×1 column `a` and an N×E×3 array `d`:
    the column's entry for f = 0, the array's entry f − 1 for f = 1, 2, 3. -/
theorem concat_feats {N E : Nat} {α : Type} (a : (⟨3, ![N, E, 1]⟩ : Shape).Idx → α)
    (d : (⟨3, ![N, E, 3]⟩ : Shape).Idx → α)
    (h : Shape.Concatenates [(⟨3, ![N, E, 1]⟩ : Shape), ⟨3, ![N, E, 3]⟩] ⟨3, ![N, E, 4]⟩ 2)
    (n : Fin N) (e : Fin E) (f : Fin 4) :
    concatenate ⟨3, ![N, E, 4]⟩ 2 [⟨⟨3, ![N, E, 1]⟩, a⟩, ⟨⟨3, ![N, E, 3]⟩, d⟩] h (ix3 n e f)
      = (Fin.cons (a (ix3 n e 0)) (fun c => d (ix3 n e c)) : Fin 4 → α) f := by
  refine Fin.cases ?_ (fun c => ?_) f
  · rw [Fin.cons_zero]
    exact concatenate_pair_apply_left 2 a d h (ix3 n e 0) rfl (ix3 n e 0) (fun b => by fin_cases b <;> rfl)
  · rw [Fin.cons_succ]
    exact concatenate_pair_apply_right 2 a d h (ix3 n e c.succ) rfl rfl (ix3 n e c)
      (fun b hb => by
        fin_cases b
        · rfl
        · rfl
        · exact absurd rfl hb)
      rfl

end Cert.PairLayout

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.KernelPay.lean ====
/-
  What the kernel body computes from one block of four nuclei, entry by entry, at the extended reals.

  The body loads the block's electrons x0 (4×1024×3), nuclei x1 (4×1×3), envelope scales x2 (4×1×8), filter
  matrices x3 (4×4×32), biases x4 (4×1×32), embeddings x10 (4×1×256) and the shared weights x5 … x9. Each named
  stage of the body, read at pair (b, e) of the block, is the specification's function of that pair's data:
  the displacement, the distance (a lane sum under a square root), the four features (a concatenation), the gated
  hidden units (a per-nucleus product plus bias under tanh, times a shared product of the envelopes), the
  cutoff, and the two stored blocks. The shared products are taken over the merged (nucleus, electron) row index
  b·1024 + e; merging and splitting that index keeps the row-major position, so row b·1024 + e of a merged
  array is row (b, e) of the array it views. A change of float format is the identity and the product into a
  zero accumulator is the plain sum over the contracted index, so no step needs more than unfolding.
-/
import proofs.«117857_j39161511804980_2_alg».proof.Proof.Gen.KernelIdeal.Skeleton
import proofs.«117857_j39161511804980_2_alg».proof.Proof.Spec
import proofs.«117857_j39161511804980_2_alg».proof.Proof.LibBatch3
import proofs.«117857_j39161511804980_2_alg».proof.Proof.PairLayout
import proofs.«117857_j39161511804980_2_alg».proof.Proof.LibPlainDot
import Idealize.ShloMosaic.PureOps.Ideal.Laws
import Idealize.ShloMosaic.Lib.ValueIdx
import Idealize.ShloMosaic.Lib.Pipeline.Value

noncomputable section

open scoped BigOperators

namespace Cert.KernelPay

open Cert.KernelIdeal Cert.KernelIdeal.Gen Idealize.ShloMosaic Idealize.ShloMosaic.ValueIdx

variable {s : Shape} {φ : FTy}

theorem tanh_apply (x : FVec Ideal s φ) (i : s.Idx) : tanh x i = Ideal.tanh (x i) := rfl
theorem exp_apply (x : FVec Ideal s φ) (i : s.Idx) : exp x i = Ideal.exp (x i) := rfl
theorem sqrt_apply (x : FVec Ideal s φ) (i : s.Idx) : sqrt x i = Ideal.sqrt (x i) := rfl
theorem log1p_apply (x : FVec Ideal s φ) (i : s.Idx) : log1p x i = Ideal.log1p (x i) := rfl

/-- The merged row index of pair (b, e) in a block of 4 nuclei with 1024 electrons each. -/
def row (b : Fin 4) (e : Fin 1024) : Fin 4096 := ⟨b.val * 1024 + e.val, by have := b.isLt; have := e.isLt; omega⟩

theorem row_val (b : Fin 4) (e : Fin 1024) : (row b e).val = b.val * 1024 + e.val := rfl

variable (x0 : Vec Ideal S4x1024x3 .f32) (x1 : Vec Ideal S4x1x3 .f32) (b : Fin 4) (e : Fin 1024)

theorem pay2_apply (c : Fin 3) :
    k0_pay2 (F := Ideal) x0 x1 (ix3 b e c) = Cert.Pair.diff (fun c => x0 (ix3 b e c)) (fun c => x1 (ix3 b 0 c)) c := by
  unfold k0_pay2
  rw [subf_apply, Cert.Batch3.bcast_row_apply, shapeCast_self]
  rfl

theorem pay3_apply :
    k0_pay3 (F := Ideal) x0 x1 (ix3 b e 0) = Cert.Pair.dist (fun c => x0 (ix3 b e c)) (fun c => x1 (ix3 b 0 c)) := by
  unfold k0_pay3
  rw [sqrt_apply]
  unfold Cert.Pair.dist
  refine congrArg Ideal.sqrt ((Cert.Batch3.lane_sum_keep_apply _ _ _ _ _ _ b e).trans (Finset.sum_congr rfl fun c _ => ?_))
  rw [mulf_apply, pay2_apply]

theorem pay4_apply (f : Fin 4) :
    k0_pay4 (F := Ideal) x0 x1 (ix3 b e f) = Cert.Pair.feats (fun c => x0 (ix3 b e c)) (fun c => x1 (ix3 b 0 c)) f := by
  unfold k0_pay4
  rw [Cert.PairLayout.concat_feats]
  unfold Cert.Pair.feats
  refine Fin.cases ?_ (fun c => ?_) f
  · rw [Fin.cons_zero, Fin.cons_zero]; exact pay3_apply x0 x1 b e
  · rw [Fin.cons_succ, Fin.cons_succ]; exact pay2_apply x0 x1 b e c

theorem pay6_apply :
    k0_pay6 (F := Ideal) x0 x1 (ix3 b e 0) = Cert.Pair.ratio (fun c => x0 (ix3 b e c)) (fun c => x1 (ix3 b 0 c)) := by
  unfold k0_pay6
  rw [divf_apply, pay3_apply, broadcast_apply]
  rfl

/-! ## The matrix products read at an entry -/

theorem bdot_lhs_0 (i : S4x1024x32.Idx) (q : dot_S4x1024x4_S4x4x32_S4x1024x32_2_1_1_2_0_0.contr.Idx) :
    (dot_S4x1024x4_S4x4x32_S4x1024x32_2_1_1_2_0_0.lhsIdx i q 0).val = (i 0).val := by
  unfold DotDims.lhsIdx
  rw [dif_pos (show (0 : Fin S4x1024x4.rank) ∈ dot_S4x1024x4_S4x4x32_S4x1024x32_2_1_1_2_0_0.lhsBatch by decide)]
  rfl
theorem bdot_lhs_1 (i : S4x1024x32.Idx) (q : dot_S4x1024x4_S4x4x32_S4x1024x32_2_1_1_2_0_0.contr.Idx) :
    (dot_S4x1024x4_S4x4x32_S4x1024x32_2_1_1_2_0_0.lhsIdx i q 1).val = (i 1).val := by
  unfold DotDims.lhsIdx
  rw [dif_neg (show ¬(1 : Fin S4x1024x4.rank) ∈ dot_S4x1024x4_S4x4x32_S4x1024x32_2_1_1_2_0_0.lhsBatch by decide), dif_pos (show (1 : Fin S4x1024x4.rank) ∈ dot_S4x1024x4_S4x4x32_S4x1024x32_2_1_1_2_0_0.lhsNonContracting by decide)]
  rfl
theorem bdot_lhs_2 (i : S4x1024x32.Idx) (q : dot_S4x1024x4_S4x4x32_S4x1024x32_2_1_1_2_0_0.contr.Idx) :
    (dot_S4x1024x4_S4x4x32_S4x1024x32_2_1_1_2_0_0.lhsIdx i q 2).val = (q ⟨0, by decide⟩).val :=
  dot_S4x1024x4_S4x4x32_S4x1024x32_2_1_1_2_0_0.lhsIdx_val_of_single rfl i q
theorem bdot_rhs_0 (i : S4x1024x32.Idx) (q : dot_S4x1024x4_S4x4x32_S4x1024x32_2_1_1_2_0_0.contr.Idx) :
    (dot_S4x1024x4_S4x4x32_S4x1024x32_2_1_1_2_0_0.rhsIdx i q 0).val = (i 0).val := by
  unfold DotDims.rhsIdx
  rw [dif_pos (show (0 : Fin S4x4x32.rank) ∈ dot_S4x1024x4_S4x4x32_S4x1024x32_2_1_1_2_0_0.rhsBatch by decide)]
  rfl
theorem bdot_rhs_1 (i : S4x1024x32.Idx) (q : dot_S4x1024x4_S4x4x32_S4x1024x32_2_1_1_2_0_0.contr.Idx) :
    (dot_S4x1024x4_S4x4x32_S4x1024x32_2_1_1_2_0_0.rhsIdx i q 1).val = (q ⟨0, by decide⟩).val :=
  dot_S4x1024x4_S4x4x32_S4x1024x32_2_1_1_2_0_0.rhsIdx_val_of_single rfl i q
theorem bdot_rhs_2 (i : S4x1024x32.Idx) (q : dot_S4x1024x4_S4x4x32_S4x1024x32_2_1_1_2_0_0.contr.Idx) :
    (dot_S4x1024x4_S4x4x32_S4x1024x32_2_1_1_2_0_0.rhsIdx i q 2).val = (i 2).val := by
  unfold DotDims.rhsIdx
  rw [dif_neg (show ¬(2 : Fin S4x4x32.rank) ∈ dot_S4x1024x4_S4x4x32_S4x1024x32_2_1_1_2_0_0.rhsBatch by decide), dif_pos (show (2 : Fin S4x4x32.rank) ∈ dot_S4x1024x4_S4x4x32_S4x1024x32_2_1_1_2_0_0.rhsNonContracting by decide)]
  rfl

/-- The per-nucleus product, batched over the block's four nuclei, into the zero accumulator: entry (b, e, k) is
    the sum over the four features f of L(b, e, f) · R(b, f, k). -/
theorem bdot_apply {φ₁ φ₂ : FTy} (Lh : FVec Ideal S4x1024x4 φ₁) (Rh : FVec Ideal S4x4x32 φ₂) (k : Fin 32) :
    matmul dot_S4x1024x4_S4x4x32_S4x1024x32_2_1_1_2_0_0 none Lh Rh (constant S4x1024x32 .f32 0x00000000#32) (ix3 b e k)
      = ∑ f : Fin 4, Lh (ix3 b e f) * Rh (ix3 b f k) := by
  show FloatOps.matmul dot_S4x1024x4_S4x4x32_S4x1024x32_2_1_1_2_0_0 none Lh Rh (constant S4x1024x32 .f32 0x00000000#32) (ix3 b e k) = _
  rw [Ideal.matmul_constant_zero_apply, ← Equiv.sum_comp (contrEquiv1 dot_S4x1024x4_S4x4x32_S4x1024x32_2_1_1_2_0_0 4 rfl rfl).symm]
  refine Finset.sum_congr rfl fun f _ => ?_
  have hk := contrEquiv1_symm_val dot_S4x1024x4_S4x4x32_S4x1024x32_2_1_1_2_0_0 4 rfl rfl f
  have el : dot_S4x1024x4_S4x4x32_S4x1024x32_2_1_1_2_0_0.lhsIdx (ix3 b e k) ((contrEquiv1 dot_S4x1024x4_S4x4x32_S4x1024x32_2_1_1_2_0_0 4 rfl rfl).symm f) = ix3 b e f := funext fun a => Fin.ext (by
    match a with
    | ⟨0, _⟩ => exact bdot_lhs_0 _ _
    | ⟨1, _⟩ => exact bdot_lhs_1 _ _
    | ⟨2, _⟩ => exact (bdot_lhs_2 _ _).trans hk)
  have er : dot_S4x1024x4_S4x4x32_S4x1024x32_2_1_1_2_0_0.rhsIdx (ix3 b e k) ((contrEquiv1 dot_S4x1024x4_S4x4x32_S4x1024x32_2_1_1_2_0_0 4 rfl rfl).symm f) = ix3 b f k := funext fun a => Fin.ext (by
    match a with
    | ⟨0, _⟩ => exact bdot_rhs_0 _ _
    | ⟨1, _⟩ => exact (bdot_rhs_1 _ _).trans hk
    | ⟨2, _⟩ => exact bdot_rhs_2 _ _)
  rw [el, er]

/-- A plain matrix product into the zero accumulator: entry (a, c) is the sum over k of A(a, k) · B(k, c). -/
theorem pdot_apply {m k n : Nat} {φ₁ φ₂ : FTy} (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂)
    (a : Fin m) (c : Fin n) :
    matmul D none A B (constant ⟨2, ![m, n]⟩ .f32 0x00000000#32) (ix2 a c) = ∑ q : Fin k, A (ix2 a q) * B (ix2 q c) :=
  Cert.PlainDot.matmul_zero_apply D hD none A B a c

/-! ## The remaining stages -/

theorem pay5_apply (x3 : Vec Ideal S4x4x32 .f32) (x4 : Vec Ideal S4x1x32 .f32) (x2 : Vec Ideal S4x1x8 .f32) (x5 : Vec Ideal S8x32 .f32) (k : Fin 32) :
    k0_pay5 (F := Ideal) x0 x1 x3 x4 x2 x5 (ix3 b e k) = Cert.Pair.hidden (fun c => x0 (ix3 b e c)) (fun c => x1 (ix3 b 0 c)) (fun v => x2 (ix3 b 0 v)) (fun f k => x3 (ix3 b f k)) (fun k => x4 (ix3 b 0 k)) (fun v k => x5 (ix2 v k)) k := by
  unfold k0_pay5 Cert.Pair.hidden
  rw [mulf_apply, tanh_apply, addf_apply]
  refine congrArg₂ (· * ·) (congrArg Ideal.tanh ?_) ?_
  · rw [bdot_apply, Cert.Batch3.bcast_row_apply, shapeCast_self]
    refine congrArg₂ (· + ·) (Finset.sum_congr rfl fun f _ => ?_) rfl
    rw [truncf_apply, truncf_apply, pay4_apply]
  · rw [Cert.Batch3.split_apply _ _ b e k (row b e) rfl, pdot_apply dot_S4096x8_S8x32_S4096x32_1_0_0_1_n_n rfl]
    refine Finset.sum_congr rfl fun v _ => ?_
    rw [truncf_apply, truncf_apply, Cert.Batch3.merge_apply _ _ b e v (row b e) rfl, exp_apply, mulf_apply,
      Cert.Batch3.bcast_col_apply, subf_apply, broadcast_apply, pay3_apply, Cert.Batch3.bcast_row_apply, shapeCast_self]
    show Ideal.exp ((Ideal.ofBits .f32 0x00000000#32 - _) * _) * _ = _
    rw [Ideal.ofBits_zero_f32, zero_sub]

/-- The cutoff as the body spells it, of the ratio ρ and the body's constant one. -/
def cutOf (ρ one : EReal) : EReal :=
  Scalar.select (Ideal.cmp .olt ρ one)
    (((Ideal.ofBits .f32 0x3F800000#32 - ρ) * (Ideal.ofBits .f32 0x3F800000#32 - ρ))
      * (Ideal.ofBits .f32 0x3F800000#32 + Ideal.ofBits .f32 0x40000000#32 * ρ))
    (Ideal.ofBits .f32 0x00000000#32)

theorem pay7_apply (v33 : FVec Ideal S4x1024x32 .f32) (v35 : FVec Ideal S4x1024x1 .f32) (one : Ideal .f32)
    (x6 : Vec Ideal S32x16 .f32) (x7 : Vec Ideal S16x256 .f32) (f : Fin 256) :
    k0_pay7 (F := Ideal) v33 v35 one x6 x7 (ix3 b e f)
      = ∑ j : Fin 16, ((∑ k : Fin 32, v33 (ix3 b e k) * x6 (ix2 k j)) * cutOf (v35 (ix3 b e 0)) one) * x7 (ix2 j f) := by
  unfold k0_pay7
  rw [Cert.Batch3.split_apply _ _ b e f (row b e) rfl, pdot_apply dot_S4096x16_S16x256_S4096x256_1_0_0_1_n_n rfl]
  refine Finset.sum_congr rfl fun j _ => ?_
  rw [truncf_apply, truncf_apply, Cert.Batch3.merge_apply _ _ b e j (row b e) rfl, mulf_apply,
    Cert.Batch3.split_apply _ _ b e j (row b e) rfl, pdot_apply dot_S4096x32_S32x16_S4096x16_1_0_0_1_n_n rfl, Cert.Batch3.bcast_col_apply]
  refine congrArg₂ (· * ·) (congrArg₂ (· * ·) (Finset.sum_congr rfl fun k _ => ?_) ?_) rfl
  · rw [truncf_apply, truncf_apply, Cert.Batch3.merge_apply _ _ b e k (row b e) rfl]
  · rfl

theorem pay9_apply (v8 : FVec Ideal S4x1024x1 .f32) (v9 : FVec Ideal S4x1024x4 .f32) (c : Fin 4) :
    k0_pay9 (F := Ideal) v8 v9 (ix2 (row b e) c)
      = Ideal.div (v9 (ix3 b e c)) (v8 (ix3 b e 0)) * Ideal.log1p (v8 (ix3 b e 0)) := by
  unfold k0_pay9
  rw [truncf_apply, Cert.Batch3.merge_apply _ _ b e c (row b e) rfl, mulf_apply, divf_apply,
    Cert.Batch3.bcast_col_apply, Cert.Batch3.bcast_col_apply, log1p_apply]

theorem pay1_apply (v69 : Vec Ideal S256 .f32) (v71 : FVec Ideal S4x1x256 .f32) (v73 : FVec Ideal S4096x4 .bf16)
    (v74 : FVec Ideal S4x256 .bf16) (f : Fin 256) :
    k0_pay1 (F := Ideal) v69 v71 v73 v74 (constant S4096x256 .f32 0x00000000#32) (ix3 b e f)
      = ((∑ c : Fin 4, v73 (ix2 (row b e) c) * v74 (ix2 c f)) + v69 (ix1 f)) + v71 (ix3 b 0 f) := by
  unfold k0_pay1
  rw [addf_apply, addf_apply, Cert.Batch3.split_apply _ _ b e f (row b e) rfl, pdot_apply dot_S4096x4_S4x256_S4096x256_1_0_0_1_n_n rfl,
    Cert.Batch3.bcast_lane_apply, Cert.Batch3.vec_as_lane_apply, Cert.Batch3.bcast_row_apply]

theorem pay8_eq (v70 : Vec Ideal S4x1x256 .f32) : k0_pay8 (F := Ideal) v70 = v70 := by
  unfold k0_pay8
  exact shapeCast_self _ _

theorem pay10_apply (v68 : Vec Ideal S4x256 .f32) (c : Fin 4) (f : Fin 256) : k0_pay10 (F := Ideal) v68 (ix2 c f) = v68 (ix2 c f) := rfl

/-! ## What the body stores, entry by entry -/

/-- The first stored block: entry (b, e, f) is the pair's `gamma`. -/
theorem gamma_block (x2 : Vec Ideal S4x1x8 .f32) (x3 : Vec Ideal S4x4x32 .f32) (x4 : Vec Ideal S4x1x32 .f32)
    (x5 : Vec Ideal S8x32 .f32) (x6 : Vec Ideal S32x16 .f32) (x7 : Vec Ideal S16x256 .f32) (f : Fin 256) :
    k0_pay7 (F := Ideal) (k0_pay5 x0 x1 x3 x4 x2 x5) (k0_pay6 x0 x1) (Scalar.ofBits .f32 0x3F800000#32) x6 x7 (ix3 b e f)
      = Cert.Pair.gamma (fun c => x0 (ix3 b e c)) (fun c => x1 (ix3 b 0 c)) (fun v => x2 (ix3 b 0 v))
          (fun f k => x3 (ix3 b f k)) (fun k => x4 (ix3 b 0 k)) (fun v k => x5 (ix2 v k))
          (fun k j => x6 (ix2 k j)) (fun j f => x7 (ix2 j f)) f := by
  rw [pay7_apply, pay6_apply]
  unfold Cert.Pair.gamma Cert.Pair.beta
  refine Finset.sum_congr rfl fun j _ => ?_
  refine congrArg₂ (· * ·) (congrArg₂ (· * ·) (Finset.sum_congr rfl fun k _ => ?_) rfl) rfl
  rw [pay5_apply]

/-- The second stored block: entry (b, e, f) is the pair's `edge`. -/
theorem edge_block (x8 : Vec Ideal S4x256 .f32) (x9 : Vec Ideal S256 .f32) (x10 : Vec Ideal S4x1x256 .f32) (f : Fin 256) :
    k0_pay1 (F := Ideal) x9 (k0_pay8 x10) (k0_pay9 (k0_pay3 x0 x1) (k0_pay4 x0 x1)) (k0_pay10 x8)
        (constant S4096x256 .f32 0x00000000#32) (ix3 b e f)
      = Cert.Pair.edge (fun c => x0 (ix3 b e c)) (fun c => x1 (ix3 b 0 c)) (fun c f => x8 (ix2 c f))
          (fun f => x9 (ix1 f)) (fun f => x10 (ix3 b 0 f)) f := by
  rw [pay1_apply, pay8_eq]
  unfold Cert.Pair.edge
  refine congrArg₂ (· + ·) (congrArg₂ (· + ·) (Finset.sum_congr rfl fun c _ => ?_) rfl) rfl
  rw [pay9_apply, pay3_apply, pay4_apply, pay10_apply]
  rfl

end Cert.KernelPay

end
-- ==== Proof.KernelBlocks.lean ====
/-
  From the blocks to the arrays: after the kernel's run the two result arrays are the specification's arrays.

  The grid has 64 points; point t stages rows 4·t … 4·t + 3 (four nuclei) of every per-nucleus array and the whole
  of every shared weight, so entry (b, ·, ·) of a per-nucleus block is entry (4·t + b, ·, ·) of its array. Four of
  the per-nucleus arrays reach the kernel with a unit row axis the host inserts; read at (n, 0, k) they are the
  argument at (n, k). With each block read off the arguments, what point t writes back is block t of the
  specification's array (the body's entries are the per-pair functions), and since nucleus n lies in the block of
  point n / 4 the blocks cover the arrays: each array ends holding the specification's array everywhere.
-/
import proofs.«117857_j39161511804980_2_alg».proof.Proof.Gen.KernelIdeal.Value
import proofs.«117857_j39161511804980_2_alg».proof.Proof.KernelPay
import Idealize.ShloMosaic.Lib.StableHlo.Run

noncomputable section

open scoped BigOperators

namespace Cert.KernelBlocks

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The first result array as the run leaves it: the specification's array of the arguments. -/
abbrev G11 (c : Dev nD) : S256x1024x256.Idx → EReal :=
  Cert.Pair.gammaArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The second result array as the run leaves it. -/
abbrev G12 (c : Dev nD) : S256x1024x256.Idx → EReal :=
  Cert.Pair.edgeArr (m ((c : Thread nD τ).loc main_arg0)) (m ((c : Thread nD τ).loc main_arg1))
    (m ((c : Thread nD τ).loc main_arg8)) (m ((c : Thread nD τ).loc main_arg9)) (m ((c : Thread nD τ).loc main_arg10))

/-- The nucleus positions with a unit row axis, as the host lays them out for the kernel. -/
theorem V_v0 (c : Dev nD) : (V m c main_v0 : S256x1x3.Idx → EReal)
    = broadcastInDim S256x1x3 ![0, 2] bcast_S256x3_S256x1x3_0_2 (m ((c : Thread nD τ).loc main_arg1)) := by
  dsimp only [Gen.V, Gen.hostOps0]; after_results
theorem V_v1 (c : Dev nD) : (V m c main_v1 : S256x1x8.Idx → EReal)
    = broadcastInDim S256x1x8 ![0, 2] bcast_S256x8_S256x1x8_0_2 (m ((c : Thread nD τ).loc main_arg2)) := by
  dsimp only [Gen.V, Gen.hostOps0]; after_results
theorem V_v2 (c : Dev nD) : (V m c main_v2 : S256x1x32.Idx → EReal)
    = broadcastInDim S256x1x32 ![0, 2] bcast_S256x32_S256x1x32_0_2 (m ((c : Thread nD τ).loc main_arg4)) := by
  dsimp only [Gen.V, Gen.hostOps0]; after_results
theorem V_v3 (c : Dev nD) : (V m c main_v3 : S256x1x256.Idx → EReal)
    = broadcastInDim S256x1x256 ![0, 2] bcast_S256x256_S256x1x256_0_2 (m ((c : Thread nD τ).loc main_arg10)) := by
  dsimp only [Gen.V, Gen.hostOps0]; after_results

theorem idx_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_11 : ∀ t : Fin cfg0.N, win0_11.index t (0 : Fin 3) = t.val ∧ win0_11.index t (1 : Fin 3) = 0 ∧ win0_11.index t (2 : Fin 3) = 0 :=
  (by decide +kernel : ∀ t : Fin grid0.N, _)

theorem idx_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx_12 : ∀ t : Fin cfg0.N, win0_12.index t (0 : Fin 3) = t.val ∧ win0_12.index t (1 : Fin 3) = 0 ∧ win0_12.index t (2 : Fin 3) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 1) = 0 :=
  (by decide +kernel : ∀ t : Fin grid0.N, _)

/-- The nucleus that row b of grid point t's block holds: 4·t + b. -/
def nucOf (t : Fin cfg0.N) (b : Fin 4) : Fin 256 :=
  ⟨t.val * 4 + b.val, by have h := t.isLt; have hN : cfg0.N = 64 := N_0; have := b.isLt; omega⟩

/-! ## Each window's block at a point, read off the argument arrays -/

theorem blk0 (c : Dev nD) (t : Fin cfg0.N) (b : Fin 4) (e : Fin 1024) (k : Fin 3) :
    iblk m c 0 t (ix3 b e k) = m ((c : Thread nD τ).loc main_arg0) (ix3 (nucOf t b) e k) := by
  obtain ⟨e0, e1, e2⟩ := idx_0 t
  show V m c main_arg0 (((cfg0.win 0).blk t).view.emb (ix3 b e k)) = _
  rw [V_main_arg0]
  refine congrArg _ (funext fun a => Fin.ext ?_)
  match a with
  | ⟨0, _⟩ => show win0_0.index t (0 : Fin 3) * 4 + 1 * b.val = t.val * 4 + b.val; omega
  | ⟨1, _⟩ => show win0_0.index t (1 : Fin 3) * 1024 + 1 * e.val = e.val; omega
  | ⟨2, _⟩ => show win0_0.index t (2 : Fin 3) * 3 + 1 * k.val = k.val; omega

theorem blk1 (c : Dev nD) (t : Fin cfg0.N) (b : Fin 4) (k : Fin 3) :
    iblk m c 1 t (ix3 b 0 k) = m ((c : Thread nD τ).loc main_arg1) (ix2 (nucOf t b) k) := by
  obtain ⟨e0, e1, e2⟩ := idx_1 t
  show (V m c main_v0 : S256x1x3.Idx → EReal) (((cfg0.win 1).blk t).view.emb (ix3 b 0 k)) = _
  rw [V_v0]
  refine broadcastInDim_apply _ bcast_S256x3_S256x1x3_0_2 _ _ (ix2 (nucOf t b) k) (fun a => ?_)
  match a with
  | ⟨0, _⟩ => show t.val * 4 + b.val = if (256 : Nat) = 1 then 0 else win0_1.index t (0 : Fin 3) * 4 + 1 * b.val; rw [if_neg (by decide)]; omega
  | ⟨1, _⟩ => show k.val = if (3 : Nat) = 1 then 0 else win0_1.index t (2 : Fin 3) * 3 + 1 * k.val; rw [if_neg (by decide)]; omega

theorem blk2 (c : Dev nD) (t : Fin cfg0.N) (b : Fin 4) (k : Fin 8) :
    iblk m c 2 t (ix3 b 0 k) = m ((c : Thread nD τ).loc main_arg2) (ix2 (nucOf t b) k) := by
  obtain ⟨e0, e1, e2⟩ := idx_2 t
  show (V m c main_v1 : S256x1x8.Idx → EReal) (((cfg0.win 2).blk t).view.emb (ix3 b 0 k)) = _
  rw [V_v1]
  refine broadcastInDim_apply _ bcast_S256x8_S256x1x8_0_2 _ _ (ix2 (nucOf t b) k) (fun a => ?_)
  match a with
  | ⟨0, _⟩ => show t.val * 4 + b.val = if (256 : Nat) = 1 then 0 else win0_2.index t (0 : Fin 3) * 4 + 1 * b.val; rw [if_neg (by decide)]; omega
  | ⟨1, _⟩ => show k.val = if (8 : Nat) = 1 then 0 else win0_2.index t (2 : Fin 3) * 8 + 1 * k.val; rw [if_neg (by decide)]; omega

theorem blk3 (c : Dev nD) (t : Fin cfg0.N) (b : Fin 4) (f : Fin 4) (k : Fin 32) :
    iblk m c 3 t (ix3 b f k) = m ((c : Thread nD τ).loc main_arg3) (ix3 (nucOf t b) f k) := by
  obtain ⟨e0, e1, e2⟩ := idx_3 t
  show V m c main_arg3 (((cfg0.win 3).blk t).view.emb (ix3 b f k)) = _
  rw [V_main_arg3]
  refine congrArg _ (funext fun a => Fin.ext ?_)
  match a with
  | ⟨0, _⟩ => show win0_3.index t (0 : Fin 3) * 4 + 1 * b.val = t.val * 4 + b.val; omega
  | ⟨1, _⟩ => show win0_3.index t (1 : Fin 3) * 4 + 1 * f.val = f.val; omega
  | ⟨2, _⟩ => show win0_3.index t (2 : Fin 3) * 32 + 1 * k.val = k.val; omega

theorem blk4 (c : Dev nD) (t : Fin cfg0.N) (b : Fin 4) (k : Fin 32) :
    iblk m c 4 t (ix3 b 0 k) = m ((c : Thread nD τ).loc main_arg4) (ix2 (nucOf t b) k) := by
  obtain ⟨e0, e1, e2⟩ := idx_4 t
  show (V m c main_v2 : S256x1x32.Idx → EReal) (((cfg0.win 4).blk t).view.emb (ix3 b 0 k)) = _
  rw [V_v2]
  refine broadcastInDim_apply _ bcast_S256x32_S256x1x32_0_2 _ _ (ix2 (nucOf t b) k) (fun a => ?_)
  match a with
  | ⟨0, _⟩ => show t.val * 4 + b.val = if (256 : Nat) = 1 then 0 else win0_4.index t (0 : Fin 3) * 4 + 1 * b.val; rw [if_neg (by decide)]; omega
  | ⟨1, _⟩ => show k.val = if (32 : Nat) = 1 then 0 else win0_4.index t (2 : Fin 3) * 32 + 1 * k.val; rw [if_neg (by decide)]; omega

theorem blk10 (c : Dev nD) (t : Fin cfg0.N) (b : Fin 4) (k : Fin 256) :
    iblk m c 10 t (ix3 b 0 k) = m ((c : Thread nD τ).loc main_arg10) (ix2 (nucOf t b) k) := by
  obtain ⟨e0, e1, e2⟩ := idx_10 t
  show (V m c main_v3 : S256x1x256.Idx → EReal) (((cfg0.win 10).blk t).view.emb (ix3 b 0 k)) = _
  rw [V_v3]
  refine broadcastInDim_apply _ bcast_S256x256_S256x1x256_0_2 _ _ (ix2 (nucOf t b) k) (fun a => ?_)
  match a with
  | ⟨0, _⟩ => show t.val * 4 + b.val = if (256 : Nat) = 1 then 0 else win0_10.index t (0 : Fin 3) * 4 + 1 * b.val; rw [if_neg (by decide)]; omega
  | ⟨1, _⟩ => show k.val = if (256 : Nat) = 1 then 0 else win0_10.index t (2 : Fin 3) * 256 + 1 * k.val; rw [if_neg (by decide)]; omega

theorem blk5 (c : Dev nD) (t : Fin cfg0.N) (v : Fin 8) (k : Fin 32) :
    iblk m c 5 t (ix2 v k) = m ((c : Thread nD τ).loc main_arg5) (ix2 v k) := by
  obtain ⟨e0, e1⟩ := idx_5 t
  show V m c main_arg5 (((cfg0.win 5).blk t).view.emb (ix2 v k)) = _
  rw [V_main_arg5]
  refine congrArg _ (funext fun a => Fin.ext ?_)
  match a with
  | ⟨0, _⟩ => show win0_5.index t (0 : Fin 2) * 8 + 1 * v.val = v.val; omega
  | ⟨1, _⟩ => show win0_5.index t (1 : Fin 2) * 32 + 1 * k.val = k.val; omega

theorem blk6 (c : Dev nD) (t : Fin cfg0.N) (k : Fin 32) (j : Fin 16) :
    iblk m c 6 t (ix2 k j) = m ((c : Thread nD τ).loc main_arg6) (ix2 k j) := by
  obtain ⟨e0, e1⟩ := idx_6 t
  show V m c main_arg6 (((cfg0.win 6).blk t).view.emb (ix2 k j)) = _
  rw [V_main_arg6]
  refine congrArg _ (funext fun a => Fin.ext ?_)
  match a with
  | ⟨0, _⟩ => show win0_6.index t (0 : Fin 2) * 32 + 1 * k.val = k.val; omega
  | ⟨1, _⟩ => show win0_6.index t (1 : Fin 2) * 16 + 1 * j.val = j.val; omega

theorem blk7 (c : Dev nD) (t : Fin cfg0.N) (j : Fin 16) (f : Fin 256) :
    iblk m c 7 t (ix2 j f) = m ((c : Thread nD τ).loc main_arg7) (ix2 j f) := by
  obtain ⟨e0, e1⟩ := idx_7 t
  show V m c main_arg7 (((cfg0.win 7).blk t).view.emb (ix2 j f)) = _
  rw [V_main_arg7]
  refine congrArg _ (funext fun a => Fin.ext ?_)
  match a with
  | ⟨0, _⟩ => show win0_7.index t (0 : Fin 2) * 16 + 1 * j.val = j.val; omega
  | ⟨1, _⟩ => show win0_7.index t (1 : Fin 2) * 256 + 1 * f.val = f.val; omega

theorem blk8 (c : Dev nD) (t : Fin cfg0.N) (q : Fin 4) (f : Fin 256) :
    iblk m c 8 t (ix2 q f) = m ((c : Thread nD τ).loc main_arg8) (ix2 q f) := by
  obtain ⟨e0, e1⟩ := idx_8 t
  show V m c main_arg8 (((cfg0.win 8).blk t).view.emb (ix2 q f)) = _
  rw [V_main_arg8]
  refine congrArg _ (funext fun a => Fin.ext ?_)
  match a with
  | ⟨0, _⟩ => show win0_8.index t (0 : Fin 2) * 4 + 1 * q.val = q.val; omega
  | ⟨1, _⟩ => show win0_8.index t (1 : Fin 2) * 256 + 1 * f.val = f.val; omega

theorem blk9 (c : Dev nD) (t : Fin cfg0.N) (f : Fin 256) :
    iblk m c 9 t (ix1 f) = m ((c : Thread nD τ).loc main_arg9) (ix1 f) := by
  have e0 := idx_9 t
  show V m c main_arg9 (((cfg0.win 9).blk t).view.emb (ix1 f)) = _
  rw [V_main_arg9]
  refine congrArg _ (funext fun a => Fin.ext ?_)
  match a with
  | ⟨0, _⟩ => show win0_9.index t (0 : Fin 1) * 256 + 1 * f.val = f.val; omega

/-- Entry (b, e, f) of grid point t's block of a result array is entry (4·t + b, e, f) of the array. -/
theorem emb11 (t : Fin cfg0.N) (b : Fin 4) (e : Fin 1024) (f : Fin 256) :
    ((cfg0.win 11).blk t).view.emb (ix3 b e f) = ix3 (nucOf t b) e f := by
  obtain ⟨e0, e1, e2⟩ := idx_11 t
  refine funext fun a => Fin.ext ?_
  match a with
  | ⟨0, _⟩ => show win0_11.index t (0 : Fin 3) * 4 + 1 * b.val = t.val * 4 + b.val; omega
  | ⟨1, _⟩ => show win0_11.index t (1 : Fin 3) * 1024 + 1 * e.val = e.val; omega
  | ⟨2, _⟩ => show win0_11.index t (2 : Fin 3) * 256 + 1 * f.val = f.val; omega

theorem emb12 (t : Fin cfg0.N) (b : Fin 4) (e : Fin 1024) (f : Fin 256) :
    ((cfg0.win 12).blk t).view.emb (ix3 b e f) = ix3 (nucOf t b) e f := by
  obtain ⟨e0, e1, e2⟩ := idx_12 t
  refine funext fun a => Fin.ext ?_
  match a with
  | ⟨0, _⟩ => show win0_12.index t (0 : Fin 3) * 4 + 1 * b.val = t.val * 4 + b.val; omega
  | ⟨1, _⟩ => show win0_12.index t (1 : Fin 3) * 1024 + 1 * e.val = e.val; omega
  | ⟨2, _⟩ => show win0_12.index t (2 : Fin 3) * 256 + 1 * f.val = f.val; omega

/-! ## What each point writes back is its block of the specification's array -/

theorem flushed11_eq (c : Dev nD) (t : Fin cfg0.N) :
    (dats m 0 c).flushed 11 t = ((cfg0.win 11).blk t).view.read (Elt Ideal) (G11 m c) := by
  rw [Value.flushed11]
  unfold out0_11
  rw [View.canon_unit_zero hz3]
  simp only [View.ld_unit_zero (S := S4x1024x3) hz3, View.ld_unit_zero (S := S4x1x3) hz3, View.ld_unit_zero (S := S4x1x8) hz3,
    View.ld_unit_zero (S := S4x4x32) hz3, View.ld_unit_zero (S := S4x1x32) hz3, View.ld_unit_zero (S := S8x32) hz2,
    View.ld_unit_zero (S := S32x16) hz2, View.ld_unit_zero (S := S16x256) hz2]
  funext y
  obtain ⟨b, e, f, rfl⟩ : ∃ (b : Fin 4) (e : Fin 1024) (f : Fin 256), y = ix3 b e f := ⟨y 0, y 1, y 2, eq_ix3 y⟩
  show k0_pay7 (k0_pay5 (iblk m c 0 t) (iblk m c 1 t) (iblk m c 3 t) (iblk m c 4 t) (iblk m c 2 t) (iblk m c 5 t))
        (k0_pay6 (iblk m c 0 t) (iblk m c 1 t)) (Scalar.ofBits .f32 0x3F800000#32) (iblk m c 6 t) (iblk m c 7 t) (ix3 b e f)
      = G11 m c (((cfg0.win 11).blk t).view.emb (ix3 b e f))
  rw [Cert.KernelPay.gamma_block, emb11]
  simp only [blk0, blk1, blk2, blk3, blk4, blk5, blk6, blk7]
  rfl

theorem flushed12_eq (c : Dev nD) (t : Fin cfg0.N) :
    (dats m 0 c).flushed 12 t = ((cfg0.win 12).blk t).view.read (Elt Ideal) (G12 m c) := by
  rw [Value.flushed12]
  unfold out0_12
  rw [View.canon_unit_zero hz3]
  simp only [View.ld_unit_zero (S := S4x1024x3) hz3, View.ld_unit_zero (S := S4x1x3) hz3, View.ld_unit_zero (S := S4x1x256) hz3,
    View.ld_unit_zero (S := S4x256) hz2, View.ld_unit_zero (S := S256) hz1]
  funext y
  obtain ⟨b, e, f, rfl⟩ : ∃ (b : Fin 4) (e : Fin 1024) (f : Fin 256), y = ix3 b e f := ⟨y 0, y 1, y 2, eq_ix3 y⟩
  show k0_pay1 (iblk m c 9 t) (k0_pay8 (iblk m c 10 t)) (k0_pay9 (k0_pay3 (iblk m c 0 t) (iblk m c 1 t)) (k0_pay4 (iblk m c 0 t) (iblk m c 1 t)))
        (k0_pay10 (iblk m c 8 t)) (constant S4096x256 .f32 0x00000000#32) (ix3 b e f)
      = G12 m c (((cfg0.win 12).blk t).view.emb (ix3 b e f))
  rw [Cert.KernelPay.edge_block, emb12]
  simp only [blk0, blk1, blk8, blk9, blk10]
  rfl

/-! ## The blocks cover the arrays -/

theorem mem_blk11 (t : Fin cfg0.N) (i : S256x1024x256.Idx) :
    i ∈ ((cfg0.win 11).blk t).view.set ↔ ∀ a : Fin 3, win0_11.index t a * S4x1024x256.size a ≤ (i a).val ∧ (i a).val < win0_11.index t a * S4x1024x256.size a + S4x1024x256.size a := by
  show i ∈ ((View.whole main_v4_0).slice (win0_11.rect t)).set ↔ _
  rw [View.set_slice_whole, Rect.mem_set_unit]
  exact Iff.rfl

theorem mem_blk12 (t : Fin cfg0.N) (i : S256x1024x256.Idx) :
    i ∈ ((cfg0.win 12).blk t).view.set ↔ ∀ a : Fin 3, win0_12.index t a * S4x1024x256.size a ≤ (i a).val ∧ (i a).val < win0_12.index t a * S4x1024x256.size a + S4x1024x256.size a := by
  show i ∈ ((View.whole main_v4_1).slice (win0_12.rect t)).set ↔ _
  rw [View.set_slice_whole, Rect.mem_set_unit]
  exact Iff.rfl

/-- Nucleus n lies in the block of grid point n / 4, so the blocks cover the array. -/
theorem cover11 (i : S256x1024x256.Idx) :
    ∃ t : Fin cfg0.N, (cfg0.win 11).flush t = true ∧ i ∈ ((cfg0.win 11).blk t).view.set := by
  have hi0 : (i 0).val < 256 := (i 0).isLt
  have hi1 : (i 1).val < 1024 := (i 1).isLt
  have hi2 : (i 2).val < 256 := (i 2).isLt
  have hN : cfg0.N = 64 := N_0
  have ht : (i 0).val / 4 < cfg0.N := by omega
  obtain ⟨e0, e1, e2⟩ := idx_11 ⟨(i 0).val / 4, ht⟩
  refine ⟨⟨(i 0).val / 4, ht⟩, flush0_11 _, ?_⟩
  rw [mem_blk11]
  intro a
  match a with
  | ⟨0, _⟩ =>
    show win0_11.index ⟨(i 0).val / 4, ht⟩ (0 : Fin 3) * 4 ≤ (i 0).val ∧ (i 0).val < win0_11.index ⟨(i 0).val / 4, ht⟩ (0 : Fin 3) * 4 + 4
    rw [e0]; show (i 0).val / 4 * 4 ≤ (i 0).val ∧ (i 0).val < (i 0).val / 4 * 4 + 4; omega
  | ⟨1, _⟩ =>
    show win0_11.index ⟨(i 0).val / 4, ht⟩ (1 : Fin 3) * 1024 ≤ (i 1).val ∧ (i 1).val < win0_11.index ⟨(i 0).val / 4, ht⟩ (1 : Fin 3) * 1024 + 1024
    rw [e1]; omega
  | ⟨2, _⟩ =>
    show win0_11.index ⟨(i 0).val / 4, ht⟩ (2 : Fin 3) * 256 ≤ (i 2).val ∧ (i 2).val < win0_11.index ⟨(i 0).val / 4, ht⟩ (2 : Fin 3) * 256 + 256
    rw [e2]; omega

theorem cover12 (i : S256x1024x256.Idx) :
    ∃ t : Fin cfg0.N, (cfg0.win 12).flush t = true ∧ i ∈ ((cfg0.win 12).blk t).view.set := by
  have hi0 : (i 0).val < 256 := (i 0).isLt
  have hi1 : (i 1).val < 1024 := (i 1).isLt
  have hi2 : (i 2).val < 256 := (i 2).isLt
  have hN : cfg0.N = 64 := N_0
  have ht : (i 0).val / 4 < cfg0.N := by omega
  obtain ⟨e0, e1, e2⟩ := idx_12 ⟨(i 0).val / 4, ht⟩
  refine ⟨⟨(i 0).val / 4, ht⟩, flush0_12 _, ?_⟩
  rw [mem_blk12]
  intro a
  match a with
  | ⟨0, _⟩ =>
    show win0_12.index ⟨(i 0).val / 4, ht⟩ (0 : Fin 3) * 4 ≤ (i 0).val ∧ (i 0).val < win0_12.index ⟨(i 0).val / 4, ht⟩ (0 : Fin 3) * 4 + 4
    rw [e0]; show (i 0).val / 4 * 4 ≤ (i 0).val ∧ (i 0).val < (i 0).val / 4 * 4 + 4; omega
  | ⟨1, _⟩ =>
    show win0_12.index ⟨(i 0).val / 4, ht⟩ (1 : Fin 3) * 1024 ≤ (i 1).val ∧ (i 1).val < win0_12.index ⟨(i 0).val / 4, ht⟩ (1 : Fin 3) * 1024 + 1024
    rw [e1]; omega
  | ⟨2, _⟩ =>
    show win0_12.index ⟨(i 0).val / 4, ht⟩ (2 : Fin 3) * 256 ≤ (i 2).val ∧ (i 2).val < win0_12.index ⟨(i 0).val / 4, ht⟩ (2 : Fin 3) * 256 + 256
    rw [e2]; omega

/-! ## The arrays after the run -/

theorem final11 (c : Dev nD) : (dats m 0 c).arrAt 11 cfg0.N = G11 m c :=
  (dats m 0 c).arrAt_eq_of_cover 11 (G11 m c) (fun t _ => flushed11_eq m c t) cover11

theorem final12 (c : Dev nD) : (dats m 0 c).arrAt 12 cfg0.N = G12 m c :=
  (dats m 0 c).arrAt_eq_of_cover 12 (G12 m c) (fun t _ => flushed12_eq m c t) cover12

/-- The kernel's run, read: both result arrays at the specification's arrays of the arguments, the arguments unchanged. -/
theorem run : θ_run defs (onTc (τ := τ) (main (F := Ideal))) ⟨m, fun _ => 0, ρ⟩ fun r => ∀ c : Dev nD,
      r.2.mem ((c : Thread nD τ).loc main_v4_0) = G11 m c
      ∧ r.2.mem ((c : Thread nD τ).loc main_v4_1) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Value.run_blocks m ρ)

end Cert.KernelBlocks

end
-- ==== Proof.RefValue.lean ====
/-
  The reference program's two result stages are the specification's two arrays, at the extended-real instance.

  Each stage of the reference is read at the index (n, e, ·) of one (nucleus, electron) pair and identified with
  the per-pair function of the specification: the displacement, the distance (the float sum's zero initial term
  is dropped), the four features (the concatenation read piece by piece), the gated hidden units, the cutoff,
  the projected and cut-off units, and the two results. The specification keeps the reference's operand order,
  so once the indices agree every arithmetic step is the same term.
-/
import proofs.«117857_j39161511804980_2_alg».proof.Proof.Gen.ReferenceIdeal.Read
import proofs.«117857_j39161511804980_2_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- Two rank-3 indices with the same three coordinates are equal. -/
local macro "idx3" : tactic =>
  `(tactic| exact funext fun a => Fin.ext (by match a with | ⟨0, _⟩ => rfl | ⟨1, _⟩ => rfl | ⟨2, _⟩ => rfl))

/-- Two rank-2 indices with the same two coordinates are equal. -/
local macro "idx2" : tactic =>
  `(tactic| exact funext fun a => Fin.ext (by match a with | ⟨0, _⟩ => rfl | ⟨1, _⟩ => rfl))

/-- The electron's three coordinates, for pair (n, e). -/
abbrev pos (x0 : FVec Ideal S256x1024x3 .f32) (n : Fin 256) (e : Fin 1024) : Fin 3 → EReal :=
  fun c => x0 (ix3 n e c)

/-- The nucleus's three coordinates. -/
abbrev nuc (x1 : FVec Ideal S256x3 .f32) (n : Fin 256) : Fin 3 → EReal :=
  fun c => x1 (ix2 n c)

/-- The displacement stage at (n, e, c) is the pair's displacement. -/
theorem diff_at (x0 : FVec Ideal S256x1024x3 .f32) (x1 : FVec Ideal S256x3 .f32)
    (n : Fin 256) (e : Fin 1024) (c : Fin 3) :
    val_main_v2 (F := Ideal) x0 x1 (ix3 n e c) = Cert.Pair.diff (pos x0 n e) (nuc x1 n) c := by
  rw [val_main_v2_apply, val_main_v1_apply, val_main_v0_apply]
  have h : idx_main_v0 (idx_main_v1 (ix3 n e c)) = ix2 n c :=
    funext fun a => Fin.ext (by match a with | ⟨0, _⟩ => rfl | ⟨1, _⟩ => rfl)
  rw [h]
  rfl

/-- The distance stage at (n, e, 0) is the pair's distance: the sum's initial term is zero. -/
theorem dist_at (x0 : FVec Ideal S256x1024x3 .f32) (x1 : FVec Ideal S256x3 .f32)
    (n : Fin 256) (e : Fin 1024) (z : Fin 1) :
    val_main_v3 (F := Ideal) x0 x1 (ix3 n e z) = Cert.Pair.dist (pos x0 n e) (nuc x1 n) := by
  rw [val_main_v3_apply, val_main_call0_v2_apply, val_main_call0_v1_apply, val_main_call0_cst_apply]
  have hs : ∀ k : Fin 3, idx_main_call0_v1 (idx_main_call0_v2 (ix3 n e z)) k = ix3 n e k := fun k =>
    funext fun a => Fin.ext (by match a with | ⟨0, _⟩ => rfl | ⟨1, _⟩ => rfl | ⟨2, _⟩ => rfl)
  have hsum : (∑ k : Fin 3, val_main_call0_v0 (F := Ideal) x0 x1
        (idx_main_call0_v1 (idx_main_call0_v2 (ix3 n e z)) k))
      = ∑ c : Fin 3, Cert.Pair.diff (pos x0 n e) (nuc x1 n) c * Cert.Pair.diff (pos x0 n e) (nuc x1 n) c :=
    Finset.sum_congr rfl fun k _ => by
      rw [hs k, val_main_call0_v0_apply, diff_at]; rfl
  rw [hsum]
  show Ideal.sqrt (Ideal.ofBits .f32 0x00000000#32 + _) = _
  rw [Ideal.ofBits_zero_f32, zero_add]
  rfl

/-- The feature stage at (n, e, f): the concatenation's first piece is the distance, its second the displacement. -/
theorem feats_at (x0 : FVec Ideal S256x1024x3 .f32) (x1 : FVec Ideal S256x3 .f32)
    (n : Fin 256) (e : Fin 1024) (f : Fin 4) :
    val_main_v4 (F := Ideal) x0 x1 (ix3 n e f) = Cert.Pair.feats (pos x0 n e) (nuc x1 n) f := by
  unfold val_main_v4
  refine Fin.cases ?_ (fun c => ?_) f
  · rw [concatenate_pair_apply_left (t := S256x1024x4) (s₁ := S256x1024x1) (s₂ := S256x1024x3)
      (2 : Fin S256x1024x4.rank) _ _ _ (ix3 n e (0 : Fin 4)) rfl (ix3 n e (0 : Fin 1))
      (fun b => by match b with | ⟨0, _⟩ => rfl | ⟨1, _⟩ => rfl | ⟨2, _⟩ => rfl)]
    rw [dist_at]
    rfl
  · rw [concatenate_pair_apply_right (t := S256x1024x4) (s₁ := S256x1024x1) (s₂ := S256x1024x3)
      (2 : Fin S256x1024x4.rank) _ _ _ (ix3 n e c.succ) rfl rfl (ix3 n e c)
      (fun b hb => by
        match b with
        | ⟨0, _⟩ => rfl
        | ⟨1, _⟩ => rfl
        | ⟨2, _⟩ => exact absurd rfl hb)
      rfl]
    rw [diff_at]
    rfl

/-- The envelope stage at (n, e, v): exp of minus the distance times the nucleus's scale v. -/
theorem env_at (x0 : FVec Ideal S256x1024x3 .f32) (x1 : FVec Ideal S256x3 .f32) (x2 : FVec Ideal S256x8 .f32)
    (n : Fin 256) (e : Fin 1024) (v : Fin 8) :
    val_main_v15 (F := Ideal) x0 x1 x2 (ix3 n e v)
      = Ideal.exp (-(Cert.Pair.dist (pos x0 n e) (nuc x1 n)) * x2 (ix2 n v)) := by
  rw [val_main_v15_apply, val_main_v14_apply, val_main_v12_apply, val_main_v10_apply, val_main_v13_apply,
    val_main_v11_apply]
  have h12 : idx_main_v12 (ix3 n e v) = ix3 n e (0 : Fin 1) := by idx3
  have h13 : idx_main_v11 (idx_main_v13 (ix3 n e v)) = ix2 n v := by idx2
  rw [h12, h13, dist_at]
  rfl

/-- The gated hidden stage at (n, e, k) is the pair's hidden unit k. -/
theorem hidden_at (x0 : FVec Ideal S256x1024x3 .f32) (x1 : FVec Ideal S256x3 .f32) (x2 : FVec Ideal S256x8 .f32)
    (x3 : FVec Ideal S256x4x32 .f32) (x4 : FVec Ideal S256x32 .f32) (x5 : FVec Ideal S8x32 .f32)
    (n : Fin 256) (e : Fin 1024) (k : Fin 32) :
    val_main_v17 (F := Ideal) x0 x1 x2 x3 x4 x5 (ix3 n e k)
      = Cert.Pair.hidden (pos x0 n e) (nuc x1 n) (fun v => x2 (ix2 n v)) (fun f k => x3 (ix3 n f k))
          (fun k => x4 (ix2 n k)) (fun v k => x5 (ix2 v k)) k := by
  rw [val_main_v17_apply, val_main_v9_apply, val_main_v8_apply, val_main_v5_apply, val_main_v7_apply,
    val_main_v6_apply, val_main_v16_apply]
  have hb : idx_main_v6 (idx_main_v7 (ix3 n e k)) = ix2 n k := by idx2
  have h5 : (∑ f : Fin 4, val_main_v4 (F := Ideal) x0 x1 (lidx_main_v5 (ix3 n e k) f)
        * x3 (ridx_main_v5 (ix3 n e k) f))
      = ∑ f : Fin 4, Cert.Pair.feats (pos x0 n e) (nuc x1 n) f * x3 (ix3 n f k) :=
    Finset.sum_congr rfl fun f _ => by
      have hl : lidx_main_v5 (ix3 n e k) f = ix3 n e f := by idx3
      have hr : ridx_main_v5 (ix3 n e k) f = ix3 n f k := by idx3
      rw [hl, hr, feats_at]
  have h16 : (∑ v : Fin 8, val_main_v15 (F := Ideal) x0 x1 x2 (lidx_main_v16 (ix3 n e k) v)
        * x5 (ridx_main_v16 (ix3 n e k) v))
      = ∑ v : Fin 8, Ideal.exp (-(Cert.Pair.dist (pos x0 n e) (nuc x1 n)) * x2 (ix2 n v)) * x5 (ix2 v k) :=
    Finset.sum_congr rfl fun v _ => by
      have hl : lidx_main_v16 (ix3 n e k) v = ix3 n e v := by idx3
      have hr : ridx_main_v16 (ix3 n e k) v = ix2 v k := by idx2
      rw [hl, hr, env_at]
  rw [hb, h5, h16]
  rfl

/-- The ratio stage at (n, e, 0): the distance over the cutoff radius. -/
theorem ratio_at (x0 : FVec Ideal S256x1024x3 .f32) (x1 : FVec Ideal S256x3 .f32)
    (n : Fin 256) (e : Fin 1024) (z : Fin 1) :
    val_main_v19 (F := Ideal) x0 x1 (ix3 n e z) = Cert.Pair.ratio (pos x0 n e) (nuc x1 n) := by
  rw [val_main_v19_apply, val_main_v18_apply, val_main_cst_apply, dist_at]
  rfl

/-- The cutoff stage at (n, e, 0) is the pair's cutoff. -/
theorem cutoff_at (x0 : FVec Ideal S256x1024x3 .f32) (x1 : FVec Ideal S256x3 .f32)
    (n : Fin 256) (e : Fin 1024) (z : Fin 1) :
    val_main_v30 (F := Ideal) x0 x1 (ix3 n e z) = Cert.Pair.cutoff (pos x0 n e) (nuc x1 n) := by
  rw [val_main_v30_apply, val_main_v21_apply, val_main_v29_apply, val_main_v24_apply, val_main_v23_apply,
    val_main_v28_apply, val_main_v26_apply, val_main_v20_apply, val_main_v22_apply, val_main_v25_apply,
    val_main_v27_apply, val_main_call1_v1_apply, val_main_call1_v0_apply, val_main_cst_0_apply,
    val_main_cst_1_apply, val_main_cst_2_apply, val_main_cst_3_apply, val_main_cst_4_apply, ratio_at]
  rfl

/-- The projected, cut-off stage at (n, e, j) is the pair's beta j. -/
theorem beta_at (x0 : FVec Ideal S256x1024x3 .f32) (x1 : FVec Ideal S256x3 .f32) (x2 : FVec Ideal S256x8 .f32)
    (x3 : FVec Ideal S256x4x32 .f32) (x4 : FVec Ideal S256x32 .f32) (x5 : FVec Ideal S8x32 .f32)
    (x6 : FVec Ideal S32x16 .f32) (n : Fin 256) (e : Fin 1024) (j : Fin 16) :
    val_main_v33 (F := Ideal) x0 x1 x2 x3 x4 x5 x6 (ix3 n e j)
      = Cert.Pair.beta (pos x0 n e) (nuc x1 n) (fun v => x2 (ix2 n v)) (fun f k => x3 (ix3 n f k))
          (fun k => x4 (ix2 n k)) (fun v k => x5 (ix2 v k)) (fun k j => x6 (ix2 k j)) j := by
  rw [val_main_v33_apply, val_main_v31_apply, val_main_v32_apply]
  have h32 : idx_main_v32 (ix3 n e j) = ix3 n e (0 : Fin 1) := by idx3
  have hsum : (∑ k : Fin 32, val_main_v17 (F := Ideal) x0 x1 x2 x3 x4 x5 (lidx_main_v31 (ix3 n e j) k)
        * x6 (ridx_main_v31 (ix3 n e j) k))
      = ∑ k : Fin 32, Cert.Pair.hidden (pos x0 n e) (nuc x1 n) (fun v => x2 (ix2 n v))
          (fun f k => x3 (ix3 n f k)) (fun k => x4 (ix2 n k)) (fun v k => x5 (ix2 v k)) k * x6 (ix2 k j) :=
    Finset.sum_congr rfl fun k _ => by
      have hl : lidx_main_v31 (ix3 n e j) k = ix3 n e k := by idx3
      have hr : ridx_main_v31 (ix3 n e j) k = ix2 k j := by idx2
      rw [hl, hr, hidden_at]
  rw [h32, hsum, cutoff_at]
  rfl

/-- The reference's first result is the specification's first array. -/
theorem gamma_eq (x0 : FVec Ideal S256x1024x3 .f32) (x1 : FVec Ideal S256x3 .f32) (x2 : FVec Ideal S256x8 .f32)
    (x3 : FVec Ideal S256x4x32 .f32) (x4 : FVec Ideal S256x32 .f32) (x5 : FVec Ideal S8x32 .f32)
    (x6 : FVec Ideal S32x16 .f32) (x7 : FVec Ideal S16x256 .f32) :
    val_main_v34 (F := Ideal) x0 x1 x2 x3 x4 x5 x6 x7 = Cert.Pair.gammaArr x0 x1 x2 x3 x4 x5 x6 x7 := by
  funext i
  obtain ⟨n, e, f, rfl⟩ : ∃ (n : Fin 256) (e : Fin 1024) (f : Fin 256), i = ix3 n e f :=
    ⟨i 0, i 1, i 2, eq_ix3 i⟩
  show _ = Cert.Pair.gamma (pos x0 n e) (nuc x1 n) (fun v => x2 (ix2 n v)) (fun f k => x3 (ix3 n f k))
      (fun k => x4 (ix2 n k)) (fun v k => x5 (ix2 v k)) (fun k j => x6 (ix2 k j)) (fun j f => x7 (ix2 j f)) f
  rw [val_main_v34_apply]
  refine Finset.sum_congr rfl fun j _ => ?_
  have hl : lidx_main_v34 (ix3 n e f) j = ix3 n e j := by idx3
  have hr : ridx_main_v34 (ix3 n e f) j = ix2 j f := by idx2
  rw [hl, hr, beta_at]

/-- The rescaled-feature stage at (n, e, c) is the pair's rescaled feature c. -/
theorem scaled_at (x0 : FVec Ideal S256x1024x3 .f32) (x1 : FVec Ideal S256x3 .f32)
    (n : Fin 256) (e : Fin 1024) (c : Fin 4) :
    val_main_v39 (F := Ideal) x0 x1 (ix3 n e c) = Cert.Pair.scaled (pos x0 n e) (nuc x1 n) c := by
  rw [val_main_v39_apply, val_main_v36_apply, val_main_v35_apply, val_main_v38_apply, val_main_v37_apply]
  have h35 : idx_main_v35 (ix3 n e c) = ix3 n e (0 : Fin 1) := by idx3
  have h38 : idx_main_v38 (ix3 n e c) = ix3 n e (0 : Fin 1) := by idx3
  rw [h35, h38, feats_at, dist_at]
  rfl

/-- The reference's second result is the specification's second array. -/
theorem edge_eq (x0 : FVec Ideal S256x1024x3 .f32) (x1 : FVec Ideal S256x3 .f32) (x8 : FVec Ideal S4x256 .f32)
    (x9 : FVec Ideal S256 .f32) (x10 : FVec Ideal S256x256 .f32) :
    val_main_v46 (F := Ideal) x0 x1 x8 x9 x10 = Cert.Pair.edgeArr x0 x1 x8 x9 x10 := by
  funext i
  obtain ⟨n, e, f, rfl⟩ : ∃ (n : Fin 256) (e : Fin 1024) (f : Fin 256), i = ix3 n e f :=
    ⟨i 0, i 1, i 2, eq_ix3 i⟩
  show _ = Cert.Pair.edge (pos x0 n e) (nuc x1 n) (fun c f => x8 (ix2 c f)) (fun f => x9 (ix1 f))
      (fun f => x10 (ix2 n f)) f
  rw [val_main_v46_apply, val_main_v43_apply, val_main_v40_apply, val_main_v42_apply, val_main_v41_apply,
    val_main_v45_apply, val_main_v44_apply]
  have h9 : idx_main_v41 (idx_main_v42 (ix3 n e f)) = ix1 f :=
    funext fun a => Fin.ext (by match a with | ⟨0, _⟩ => rfl)
  have h10 : idx_main_v44 (idx_main_v45 (ix3 n e f)) = ix2 n f := by idx2
  have hsum : (∑ c : Fin 4, val_main_v39 (F := Ideal) x0 x1 (lidx_main_v40 (ix3 n e f) c)
        * x8 (ridx_main_v40 (ix3 n e f) c))
      = ∑ c : Fin 4, Cert.Pair.scaled (pos x0 n e) (nuc x1 n) c * x8 (ix2 c f) :=
    Finset.sum_congr rfl fun c _ => by
      have hl : lidx_main_v40 (ix3 n e f) c = ix3 n e c := by idx3
      have hr : ridx_main_v40 (ix3 n e f) c = ix2 c f := by idx2
      rw [hl, hr, scaled_at]
  rw [h9, h10, hsum]
  rfl

end Cert.RefValue

end
-- ==== Proof.lean ====
/-
  The kernel and the reference compute the same two arrays on the extended reals.

  Both programs compute, for every (nucleus n, electron e) pair, the same chain: the displacement of the electron
  from its nucleus, its length, the four features (length and displacement), the nucleus's dense filter under
  tanh gated by a shared projection of exponential envelopes, a smooth cutoff, two shared projections giving the
  first result, and the features rescaled by log(1 + d)/d, projected, plus two biases, giving the second.
  The kernel does this four nuclei at a time, with the shared projections taken over the merged (nucleus,
  electron) row index and the inputs passed through a narrower float format on the way into each product; on the
  extended reals a format change is the identity, a product into a zero accumulator is the plain finite sum, and
  finite sums do not depend on their order, so both sides are the specification's arrays (Spec.lean), operation
  for operation: no law of arithmetic beyond 0 + x = x and 0 − x = −x is used, and none that needs finiteness.
  The kernel's side is KernelPay.lean (the body, entry by entry) and KernelBlocks.lean (blocks to arrays); the
  reference's side is RefValue.lean. The frames are the generated ones; the idealization rewrote nothing.
-/
import proofs.«117857_j39161511804980_2_alg».proof.Defs
import proofs.«117857_j39161511804980_2_alg».proof.Proof.Gen.Kernel
import proofs.«117857_j39161511804980_2_alg».proof.Proof.Gen.Kernel.Skeleton
import proofs.«117857_j39161511804980_2_alg».proof.Proof.Gen.Kernel.Launch
import proofs.«117857_j39161511804980_2_alg».proof.Proof.Gen.Kernel.Points
import proofs.«117857_j39161511804980_2_alg».proof.Proof.Gen.Kernel.Frame
import proofs.«117857_j39161511804980_2_alg».proof.Proof.Gen.KernelIdeal
import proofs.«117857_j39161511804980_2_alg».proof.Proof.Gen.KernelIdeal.Skeleton
import proofs.«117857_j39161511804980_2_alg».proof.Proof.Gen.KernelIdeal.Launch
import proofs.«117857_j39161511804980_2_alg».proof.Proof.Gen.KernelIdeal.Points
import proofs.«117857_j39161511804980_2_alg».proof.Proof.Gen.KernelIdeal.Frame
import proofs.«117857_j39161511804980_2_alg».proof.Proof.Gen.KernelIdeal.Value
import proofs.«117857_j39161511804980_2_alg».proof.Proof.Gen.ReferenceIdeal
import proofs.«117857_j39161511804980_2_alg».proof.Proof.Gen.ReferenceIdeal.Run
import proofs.«117857_j39161511804980_2_alg».proof.Proof.Gen.ReferenceIdeal.Read
import proofs.«117857_j39161511804980_2_alg».proof.Proof.Gen.Pre_finite_inputs
import proofs.«117857_j39161511804980_2_alg».proof.Proof.KernelBlocks
import proofs.«117857_j39161511804980_2_alg».proof.Proof.RefValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments unchanged: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with the specification's two arrays of the (agreeing) arguments. -/
theorem algebraic : Cert.algebraic_KernelIdeal_ReferenceIdeal := by
  intro m ρ m' ρ' _ hagree
  refine ⟨fun c => Cert.KernelBlocks.G11 m c, fun c => Cert.KernelBlocks.G12 m c, Cert.KernelBlocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v34_eq, Cert.RefValue.gamma_eq, a0, a1, a2, a3, a4, a5, a6, a7]
  · obtain ⟨a0, a1, a2, a3, a4, a5, a6, a7, a8, a9, a10⟩ := hagree c
    rw [Cert.ReferenceIdeal.Read.val_main_v46_eq, Cert.RefValue.edge_eq, a0, a1, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
